-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S2000x128 : Shape := ⟨2, ![2000, 128]⟩
abbrev S1700000x128 : Shape := ⟨2, ![1700000, 128]⟩
abbrev S1x128 : Shape := ⟨2, ![1, 128]⟩
abbrev S100000x64 : Shape := ⟨2, ![100000, 64]⟩
abbrev S2000x64 : Shape := ⟨2, ![2000, 64]⟩
abbrev S1700000x64 : Shape := ⟨2, ![1700000, 64]⟩
abbrev S1x64 : Shape := ⟨2, ![1, 64]⟩
abbrev S2000 : Shape := ⟨1, ![2000]⟩
abbrev S2000x1 : Shape := ⟨2, ![2000, 1]⟩

abbrev nBuf : Space → Nat
  | .hbm => 77
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1700000, .i32⟩
  | .hbm, ⟨22, _⟩ => ⟨S1700000, .i1⟩
  | .hbm, ⟨23, _⟩ => ⟨S_, .i32⟩
  | .hbm, ⟨24, _⟩ => ⟨S1700000, .i32⟩
  | .hbm, ⟨25, _⟩ => ⟨S1700000, .i32⟩
  | .hbm, ⟨26, _⟩ => ⟨S1700000, .i32⟩
  | .hbm, ⟨27, _⟩ => ⟨S1700000x1, .i32⟩
  | .hbm, ⟨28, _⟩ => ⟨S1700000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S100000x128, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000x128, .f32⟩
  | .hbm, ⟨49, _⟩ => ⟨S1700000x1, .f32⟩
  | .hbm, ⟨50, _⟩ => ⟨S1700000x128, .f32⟩
  | .hbm, ⟨51, _⟩ => ⟨S1700000x128, .f32⟩
  | .hbm, ⟨52, _⟩ => ⟨S_, .f32⟩
  | .hbm, ⟨53, _⟩ => ⟨S100000x128, .f32⟩
  | .hbm, ⟨54, _⟩ => ⟨S1700000x1, .i32⟩
  | .hbm, ⟨55, _⟩ => ⟨S100000x128, .f32⟩
  | .hbm, ⟨56, _⟩ => ⟨S1x128, .f32⟩
  | .hbm, ⟨57, _⟩ => ⟨S100000x128, .f32⟩
  | .hbm, ⟨58, _⟩ => ⟨S100000x64, .f32⟩
  | .hbm, ⟨59, _⟩ => ⟨S_, .i32⟩
  | .hbm, ⟨60, _⟩ => ⟨S1700000, .i32⟩
  | .hbm, ⟨61, _⟩ => ⟨S1700000, .i1⟩
  | .hbm, ⟨62, _⟩ => ⟨S_, .i32⟩
  | .hbm, ⟨63, _⟩ => ⟨S1700000, .i32⟩
  | .hbm, ⟨64, _⟩ => ⟨S1700000, .i32⟩
  | .hbm, ⟨65, _⟩ => ⟨S1700000, .i32⟩
  | .hbm, ⟨66, _⟩ => ⟨S1700000x1, .i32⟩
  | .hbm, ⟨67, _⟩ => ⟨S1700000x64, .f32⟩
  | .hbm, ⟨68, _⟩ => ⟨S1700000x1, .f32⟩
  | .hbm, ⟨69, _⟩ => ⟨S1700000x64, .f32⟩
  | .hbm, ⟨70, _⟩ => ⟨S1700000x64, .f32⟩
  | .hbm, ⟨71, _⟩ => ⟨S_, .f32⟩
  | .hbm, ⟨72, _⟩ => ⟨S100000x64, .f32⟩
  | .hbm, ⟨73, _⟩ => ⟨S1700000x1, .i32⟩
  | .hbm, ⟨74, _⟩ => ⟨S100000x64, .f32⟩
  | .hbm, ⟨75, _⟩ => ⟨S1x64, .f32⟩
  | .hbm, ⟨76, _⟩ => ⟨S100000x64, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S1x64, .f32⟩
  | .local _ .vmem, ⟨18, _⟩ => ⟨S2000x64, .f32⟩
  | .local _ .vmem, ⟨19, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c_7 : Ref sig .tc := ⟨.hbm, 59, rfl⟩
abbrev main_v44 : Ref sig .tc := ⟨.hbm, 60, rfl⟩
abbrev main_v45 : Ref sig .tc := ⟨.hbm, 61, rfl⟩
abbrev main_c_8 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_9 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S2000x128_S2000x128 : S2000x128.ShapeCasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  shapeCasts_S2000x64_S2000x64 : S2000x64.ShapeCasts S2000x64
  reduces_S2000x64_S2000 : S2000x64.Reduces [1] S2000
  shapeCasts_S2000_S2000x1 : S2000.ShapeCasts S2000x1
  broadcasts_S2000x1_S2000x64 : S2000x1.Broadcasts S2000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x128_S128x128_S2000x128_1_0_0_1_n_n_wf : DotDims.WF S2000x128 S128x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x64_S2000x64_1_0_0_1_n_n_wf : DotDims.WF S2000x128 S128x64 S2000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S100000x64.size a
  hwx2_2 : ∀ i : grid2.Coords, EltTy.bits .f32 = 32 ∨ (Rect.block (s := S100000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S100000x64.size a
  hwx3_2 : ∀ i : grid3.Coords, EltTy.bits .f32 = 32 ∨ (Rect.block (s := S100000x64) S2000x64.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S2000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S100000x1 : Shape := ⟨2, ![100000, 1]⟩

abbrev nBuf : Space → Nat
  | .hbm => 126
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x128, .f32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S1700000, .i32⟩
  | .hbm, ⟨23, _⟩ => ⟨S1700000, .i1⟩
  | .hbm, ⟨24, _⟩ => ⟨S_, .i32⟩
  | .hbm, ⟨25, _⟩ => ⟨S1700000, .i32⟩
  | .hbm, ⟨26, _⟩ => ⟨S1700000, .i32⟩
  | .hbm, ⟨27, _⟩ => ⟨S1700000, .i32⟩
  | .hbm, ⟨28, _⟩ => ⟨S1700000x1, .i32⟩
  | .hbm, ⟨29, _⟩ => ⟨S1700000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000x128, .f32⟩
  | .hbm, ⟨49, _⟩ => ⟨S1700000x1, .f32⟩
  | .hbm, ⟨50, _⟩ => ⟨S1700000x128, .f32⟩
  | .hbm, ⟨51, _⟩ => ⟨S1700000x128, .f32⟩
  | .hbm, ⟨52, _⟩ => ⟨S_, .f32⟩
  | .hbm, ⟨53, _⟩ => ⟨S100000x128, .f32⟩
  | .hbm, ⟨54, _⟩ => ⟨S1700000x1, .i32⟩
  | .hbm, ⟨55, _⟩ => ⟨S100000x128, .f32⟩
  | .hbm, ⟨56, _⟩ => ⟨S1x128, .f32⟩
  | .hbm, ⟨57, _⟩ => ⟨S100000x128, .f32⟩
  | .hbm, ⟨58, _⟩ => ⟨S100000x128, .f32⟩
  | .hbm, ⟨59, _⟩ => ⟨S_, .f32⟩
  | .hbm, ⟨60, _⟩ => ⟨S100000x128, .f32⟩
  | .hbm, ⟨61, _⟩ => ⟨S100000x128, .f32⟩
  | .hbm, ⟨62, _⟩ => ⟨S100000x64, .f32⟩
  | .hbm, ⟨63, _⟩ => ⟨S100000, .i32⟩
  | .hbm, ⟨64, _⟩ => ⟨S1700000, .i32⟩
  | .hbm, ⟨65, _⟩ => ⟨S1700000, .i32⟩
  | .hbm, ⟨66, _⟩ => ⟨S_, .f32⟩
  | .hbm, ⟨67, _⟩ => ⟨S1700000, .f32⟩
  | .hbm, ⟨68, _⟩ => ⟨S_, .f32⟩
  | .hbm, ⟨69, _⟩ => ⟨S100000, .f32⟩
  | .hbm, ⟨70, _⟩ => ⟨S1700000x1, .i32⟩
  | .hbm, ⟨71, _⟩ => ⟨S100000, .f32⟩
  | .hbm, ⟨72, _⟩ => ⟨S100000, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000, .f32⟩
  | .hbm, ⟨82, _⟩ => ⟨S_, .i32⟩
  | .hbm, ⟨83, _⟩ => ⟨S1700000, .i32⟩
  | .hbm, ⟨84, _⟩ => ⟨S1700000, .i1⟩
  | .hbm, ⟨85, _⟩ => ⟨S_, .i32⟩
  | .hbm, ⟨86, _⟩ => ⟨S1700000, .i32⟩
  | .hbm, ⟨87, _⟩ => ⟨S1700000, .i32⟩
  | .hbm, ⟨88, _⟩ => ⟨S1700000, .i32⟩
  | .hbm, ⟨89, _⟩ => ⟨S1700000x1, .i32⟩
  | .hbm, ⟨90, _⟩ => ⟨S1700000, .f32⟩
  | .hbm, ⟨91, _⟩ => ⟨S1700000, .f32⟩
  | .hbm, ⟨92, _⟩ => ⟨S_, .i32⟩
  | .hbm, ⟨93, _⟩ => ⟨S1700000, .i32⟩
  | .hbm, ⟨94, _⟩ => ⟨S1700000, .i1⟩
  | .hbm, ⟨95, _⟩ => ⟨S_, .i32⟩
  | .hbm, ⟨96, _⟩ => ⟨S1700000, .i32⟩
  | .hbm, ⟨97, _⟩ => ⟨S1700000, .i32⟩
  | .hbm, ⟨98, _⟩ => ⟨S1700000, .i32⟩
  | .hbm, ⟨99, _⟩ => ⟨S1700000x1, .i32⟩
  | .hbm, ⟨100, _⟩ => ⟨S1700000x64, .f32⟩
  | .hbm, ⟨101, _⟩ => ⟨S1700000x1, .f32⟩
  | .hbm, ⟨102, _⟩ => ⟨S1700000x64, .f32⟩
  | .hbm, ⟨103, _⟩ => ⟨S1700000x64, .f32⟩
  | .hbm, ⟨104, _⟩ => ⟨S_, .f32⟩
  | .hbm, ⟨105, _⟩ => ⟨S100000x64, .f32⟩
  | .hbm, ⟨106, _⟩ => ⟨S1700000x1, .i32⟩
  | .hbm, ⟨107, _⟩ => ⟨S100000x64, .f32⟩
  | .hbm, ⟨108, _⟩ => ⟨S1x64, .f32⟩
  | .hbm, ⟨109, _⟩ => ⟨S100000x64, .f32⟩
  | .hbm, ⟨110, _⟩ => ⟨S100000x64, .f32⟩
  | .hbm, ⟨111, _⟩ => ⟨S_, .f32⟩
  | .hbm, ⟨112, _⟩ => ⟨S100000, .f32⟩
  | .hbm, ⟨113, _⟩ => ⟨S_, .f32⟩
  | .hbm, ⟨114, _⟩ => ⟨S100000, .f32⟩
  | .hbm, ⟨115, _⟩ => ⟨S100000, .f32⟩
  | .hbm, ⟨116, _⟩ => ⟨S100000x1, .f32⟩
  | .hbm, ⟨117, _⟩ => ⟨S100000x64, .f32⟩
  | .hbm, ⟨118, _⟩ => ⟨S100000x64, .f32⟩
  | .hbm, ⟨119, _⟩ => ⟨S100000x64, .f32⟩
  | .hbm, ⟨120, _⟩ => ⟨S_, .f32⟩
  | .hbm, ⟨121, _⟩ => ⟨S100000, .f32⟩
  | .hbm, ⟨122, _⟩ => ⟨S100000x1, .f32⟩
  | .hbm, ⟨123, _⟩ => ⟨S100000x1, .f32⟩
  | .hbm, ⟨124, _⟩ => ⟨S100000x64, .f32⟩
  | .hbm, ⟨125, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_7 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_c_9 : Ref sig .tc := ⟨.hbm, 73, rfl⟩
abbrev main_v54 : Ref sig .tc := ⟨.hbm, 74, rfl⟩
abbrev main_v55 : Ref sig .tc := ⟨.hbm, 75, rfl⟩
abbrev main_c_10 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_11 : Ref sig .tc := ⟨.hbm, 82, rfl⟩
abbrev main_v61 : Ref sig .tc := ⟨.hbm, 83, rfl⟩
abbrev main_v62 : Ref sig .tc := ⟨.hbm, 84, rfl⟩
abbrev main_c_12 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_c_13 : Ref sig .tc := ⟨.hbm, 92, rfl⟩
abbrev main_v69 : Ref sig .tc := ⟨.hbm, 93, rfl⟩
abbrev main_v70 : Ref sig .tc := ⟨.hbm, 94, rfl⟩
abbrev main_c_14 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_15 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_call1_cst : Ref sig .tc := ⟨.hbm, 111, rfl⟩
abbrev main_call1_v0 : Ref sig .tc := ⟨.hbm, 112, rfl⟩
abbrev main_call1_cst_0 : Ref sig .tc := ⟨.hbm, 113, rfl⟩
abbrev main_call1_v1 : Ref sig .tc := ⟨.hbm, 114, rfl⟩
abbrev main_call1_v2 : Ref sig .tc := ⟨.hbm, 115, rfl⟩
abbrev main_call1_v3 : Ref sig .tc := ⟨.hbm, 116, rfl⟩
abbrev main_call1_v4 : Ref sig .tc := ⟨.hbm, 117, rfl⟩
abbrev main_call1_v5 : Ref sig .tc := ⟨.hbm, 118, rfl⟩
abbrev main_call1_v6 : Ref sig .tc := ⟨.hbm, 119, rfl⟩
abbrev main_call1_cst_1 : Ref sig .tc := ⟨.hbm, 120, rfl⟩
abbrev main_call1_v7 : Ref sig .tc := ⟨.hbm, 121, rfl⟩
abbrev main_call1_v8 : Ref sig .tc := ⟨.hbm, 122, rfl⟩
abbrev main_call1_v9 : Ref sig .tc := ⟨.hbm, 123, rfl⟩
abbrev main_call1_v10 : Ref sig .tc := ⟨.hbm, 124, rfl⟩
abbrev main_v85 : Ref sig .tc := ⟨.hbm, 125, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The kernel's run with its result buffer named.  The program is seven segments: host operations, the first dense
  pipeline, host operations (the first aggregation), the bias-and-floor pipeline, the second dense pipeline, host
  operations (the second aggregation), the bias-and-log-softmax pipeline.  Every weakly fair execution terminates, nothing
  faulting, and ends with EVERY buffer outside the pipelines' staging memory at the contents the seven segments fold to
  from the launch memory; read at the result buffer that is the last pipeline's output array, and at each argument it
  is the launch contents.
-/
import proofs.«156674_j5961414607058_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_out : θ_run defs (onTc (τ := τ) (main (F := F))) ⟨m, fun _ => 0, ρ⟩ (fun r => ∀ c : Dev nD,
      r.2.mem ((c.tc : Thread nD τ).loc main_v58) = W7 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v58 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Hand

end
-- ==== Proof.LibPlainDot.lean ====
/-
  A plain matrix product, read at one entry.

  A contraction with the dimension numbers of "rows of an [n, k] matrix against columns of a [k, d] matrix" (contract
  axis 1 of the left with axis 0 of the right, no batch axis) sums, at entry (p, o), the products of row p of the left
  operand with column o of the right: the sum over j of lhs(p, j) · rhs(j, o).  This holds for any record of those
  dimension numbers, whatever its extents and formats, and gives the same reading of a matrix unit's product into the
  zero accumulator and of the host's dot_general, on the extended reals.
-/
import Idealize.ShloMosaic.PureOps.Ideal.Laws
import Idealize.ShloMosaic.Lib.ValueIdx

noncomputable section

namespace Cert.LibPlainDot

open Idealize.ShloMosaic Idealize.ShloMosaic.ValueIdx

/-- The sum over the contraction index is the sum over the one contracted coordinate j, the left operand read at
    (p, j) and the right at (j, o). -/
theorem sum_contr_plain {n k d : ℕ} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = [])
    (lhs : (⟨2, ![n, k]⟩ : Shape).Idx → EReal) (rhs : (⟨2, ![k, d]⟩ : Shape).Idx → EReal) (p : Fin n) (o : Fin d) :
    ∑ q : D.contr.Idx, lhs (D.lhsIdx (ix2 p o) q) * rhs (D.rhsIdx (ix2 p o) q) = ∑ j : Fin k, lhs (ix2 p j) * rhs (ix2 j o) := by
  obtain ⟨lc, rc, ln, rn, lb, rb, wf⟩ := D
  simp only at hlc hrc hln hrn hlb hrb
  subst hlc hrc hln hrn hlb hrb
  rw [← Equiv.sum_comp (contrEquiv1 (DotDims.mk [1] [0] [0] [1] [] [] wf) k rfl rfl).symm]
  refine Finset.sum_congr rfl fun j _ => ?_
  have hk := contrEquiv1_symm_val (DotDims.mk [1] [0] [0] [1] [] [] wf) k rfl rfl j
  have el : (DotDims.mk [1] [0] [0] [1] [] [] wf).lhsIdx (ix2 p o) ((contrEquiv1 (DotDims.mk [1] [0] [0] [1] [] [] wf) k rfl rfl).symm j) = ix2 p j :=
    funext fun a => Fin.ext (by
      match a with
      | ⟨0, _⟩ => rfl
      | ⟨1, _⟩ => exact ((DotDims.mk [1] [0] [0] [1] [] [] wf).lhsIdx_val_of_single rfl _ _).trans hk)
  have er : (DotDims.mk [1] [0] [0] [1] [] [] wf).rhsIdx (ix2 p o) ((contrEquiv1 (DotDims.mk [1] [0] [0] [1] [] [] wf) k rfl rfl).symm j) = ix2 j o :=
    funext fun a => Fin.ext (by
      match a with
      | ⟨0, _⟩ => exact ((DotDims.mk [1] [0] [0] [1] [] [] wf).rhsIdx_val_of_single rfl _ _).trans hk
      | ⟨1, _⟩ => rfl)
  rw [el, er]

/-- A matrix unit's product into the zero accumulator, at (p, o). -/
theorem matmul_zero_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision)
    (lhs : FVec Ideal ⟨2, ![n, k]⟩ φ₁) (rhs : FVec Ideal ⟨2, ![k, d]⟩ φ₂) (p : Fin n) (o : Fin d) :
    FloatOps.matmul D prec lhs rhs (constant ⟨2, ![n, d]⟩ .f32 0x00000000#32) (ix2 p o) = ∑ j : Fin k, lhs (ix2 p j) * rhs (ix2 j o) :=
  (Ideal.matmul_constant_zero_apply D prec lhs rhs (ix2 p o)).trans (sum_contr_plain D hlc hrc hln hrn hlb hrb lhs rhs p o)

/-- The host's dot_general, at (p, o). -/
theorem dotGeneral_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision) (sched : HostSchedule)
    (lhs : FVec Ideal ⟨2, ![n, k]⟩ φ₁) (rhs : FVec Ideal ⟨2, ![k, d]⟩ φ₂) (p : Fin n) (o : Fin d) :
    FloatOps.dotGeneral D prec sched lhs rhs (ix2 p o) = ∑ j : Fin k, lhs (ix2 p j) * rhs (ix2 j o) :=
  (Ideal.dotGeneral_apply D prec sched lhs rhs (ix2 p o)).trans (sum_contr_plain D hlc hrc hln hrn hlb hrb lhs rhs p o)

end Cert.LibPlainDot

end
-- ==== Proof.LibBiasRow.lean ====
/-
  A bias vector laid along the rows of a matrix, read at an entry.

  A vector [D] reshaped to the one-row matrix [1, D] has the vector's element k at (0, k); that row spread over N rows has,
  at (p, k), the row's element (0, k).  Together: adding a bias vector to every row of an [N, D] matrix adds element k of the
  vector at column k.  General in the extents and the element type.
-/
import Idealize.ShloMosaic.Lib.ValueIdx
import Idealize.ShloMosaic.Lib.Pipeline.Value

noncomputable section

namespace Cert.LibBiasRow

open Idealize.ShloMosaic Idealize.ShloMosaic.ValueIdx

/-- A vector reshaped to a one-row matrix: element (u, k) of the row is element k of the vector. -/
theorem vec_as_row_apply {α : Type} {D : ℕ} (h : (⟨1, ![D]⟩ : Shape).ShapeCasts ⟨2, ![1, D]⟩)
    (v : (⟨1, ![D]⟩ : Shape).Idx → α) (u : Fin 1) (k : Fin D) :
    shapeCast ⟨2, ![1, D]⟩ v h (ix2 u k) = v (ix1 k) := by
  refine (shapeCast_addUnit_apply (n := 1) ![D] v h (ix2 u k)).trans (congrArg v ?_)
  funext a
  match a with
  | ⟨0, _⟩ => rfl

/-- A one-row matrix spread over N rows: element (p, k) is the row's element (0, k) (the first axis is a unit axis; the
    second is read at the column, also when D = 1). -/
theorem row_spread_apply {α : Type} {N D : ℕ} (h : (⟨2, ![1, D]⟩ : Shape).Broadcasts ⟨2, ![N, D]⟩)
    (v : (⟨2, ![1, D]⟩ : Shape).Idx → α) (p : Fin N) (k : Fin D) :
    broadcastTo ⟨2, ![N, D]⟩ v h (ix2 p k) = v (ix2 (0 : Fin 1) k) :=
  broadcastTo_apply v h (ix2 p k) (ix2 (0 : Fin 1) k) (fun a => by
    match a with
    | ⟨0, _⟩ => rfl
    | ⟨1, _⟩ =>
      show k.val = if D = 1 then 0 else k.val
      split
      · have := k.isLt; omega
      · rfl)

/-- The two together: a vector reshaped to a row and spread over N rows reads, at (p, k), the vector's element k. -/
theorem vec_spread_apply {α : Type} {N D : ℕ} (h₁ : (⟨1, ![D]⟩ : Shape).ShapeCasts ⟨2, ![1, D]⟩)
    (h₂ : (⟨2, ![1, D]⟩ : Shape).Broadcasts ⟨2, ![N, D]⟩) (v : (⟨1, ![D]⟩ : Shape).Idx → α) (p : Fin N) (k : Fin D) :
    broadcastTo ⟨2, ![N, D]⟩ (shapeCast ⟨2, ![1, D]⟩ v h₁) h₂ (ix2 p k) = v (ix1 k) :=
  (row_spread_apply h₂ _ p k).trans (vec_as_row_apply h₁ v 0 k)

end Cert.LibBiasRow

end
-- ==== Proof.LibRowBroadcast.lean ====
/-
  Two more `broadcastInDim` forms read at an index: a vector [D] placed as the one row of a [1, D] matrix (the operand's
  axis sent to the result's axis 1), and a [1, D] row spread over N rows. General in the extents and the element type.
-/
import Idealize.ShloMosaic.Lib.ValueIdx
import Idealize.ShloMosaic.Lib.Pipeline.Value

noncomputable section

namespace Cert.LibRowBroadcast

open Idealize.ShloMosaic Idealize.ShloMosaic.ValueIdx

/-- A vector as a row: element (u, o) of the row is element o of the vector (also when D = 1, where the operand's one
    axis is a unit axis read at 0 = o). -/
theorem vec_row_apply {α : Type} {D : ℕ} (h : (⟨1, ![D]⟩ : Shape).BroadcastsInDim ⟨2, ![1, D]⟩ ![1])
    (v : (⟨1, ![D]⟩ : Shape).Idx → α) (u : Fin 1) (o : Fin D) :
    broadcastInDim ⟨2, ![1, D]⟩ ![1] h v (ix2 u o) = v (ix1 o) :=
  broadcastInDim_apply ![1] h v (ix2 u o) (ix1 o) (fun a => by
    match a with
    | ⟨0, _⟩ =>
      show o.val = if D = 1 then 0 else o.val
      split
      · have := o.isLt; omega
      · rfl)

/-- A row spread over N rows: element (p, o) is the row's element (0, o) (the operand's first axis is a unit axis; its
    second is read at the column, also when D = 1). -/
theorem row_mat_apply {α : Type} {N D : ℕ} (h : (⟨2, ![1, D]⟩ : Shape).BroadcastsInDim ⟨2, ![N, D]⟩ ![0, 1])
    (v : (⟨2, ![1, D]⟩ : Shape).Idx → α) (p : Fin N) (o : Fin D) :
    broadcastInDim ⟨2, ![N, D]⟩ ![0, 1] h v (ix2 p o) = v (ix2 (0 : Fin 1) o) :=
  broadcastInDim_apply ![0, 1] h v (ix2 p o) (ix2 (0 : Fin 1) o) (fun a => by
    match a with
    | ⟨0, _⟩ => rfl
    | ⟨1, _⟩ =>
      show o.val = if D = 1 then 0 else o.val
      split
      · have := o.isLt; omega
      · rfl)

end Cert.LibRowBroadcast

end
-- ==== Proof.LibRowStages.lean ====
/-
  Row-wise stages on matrices of extended reals: the matrix product, a bias row added to every row, the floor at zero.

  On the extended reals an [n, k] matrix times a [k, d] matrix has at (p, o) the sum over j of a(p, j) * w(j, o); adding a
  one-row matrix to every row adds b(0, j) at (p, j); flooring takes the maximum with what the zero word of the 32-bit
  float format denotes.  Each of the three works one row at a time: row p of the result depends on row p of the matrix
  operand only.  So if row q of a matrix ab is row p of a matrix a, the same holds of their images under any of the three
  (`RowEq`, `mm_row`, `addRow_row`, `relu_row`), hence under any composition: a stage computed on a block of rows is the
  same rows of the stage of the whole matrix.  Nothing is distributed or cancelled, so this holds at the infinities too.

  The operations a vector unit and a host program apply are these functions, entry by entry: a matrix unit's product into
  the zero accumulator and the host's contraction with the same dimension numbers are `mm` whatever the operands' float
  formats; a bias row spread over the rows and added is `addRow` (for the unit's spread of a one-row matrix, and for the
  host's vector placed as a row and then spread); the maximum against a splat of the zero word is `relu` (splat from a
  scalar constant by the unit, from a scalar array by the host); a change to a narrower float format changes nothing.
-/
import Idealize.ShloMosaic.PureOps.Ideal
import Idealize.ShloMosaic.PureOps.Ideal.Laws
import Idealize.ShloMosaic.Lib.ValueIdx
import Idealize.ShloMosaic.Lib.Pipeline.Value
import proofs.«156674_j5961414607058_1_alg».proof.Proof.LibPlainDot
import proofs.«156674_j5961414607058_1_alg».proof.Proof.LibBiasRow
import proofs.«156674_j5961414607058_1_alg».proof.Proof.LibRowBroadcast

noncomputable section

open scoped BigOperators

namespace Cert.LibRowStages

open Idealize.ShloMosaic Idealize.ShloMosaic.ValueIdx

/-- An [a, b] matrix of extended reals. -/
abbrev Mat (a b : ℕ) : Type := (⟨2, ![a, b]⟩ : Shape).Idx → EReal

/-- The floor of the rectifier: what the zero word of the 32-bit float format denotes (never evaluated: the same word
    stands on both sides of every equation). -/
def floor0 : EReal := Ideal.ofBits .f32 0x00000000#32

/-- The matrix product: entry (p, o) is the sum over j of a(p, j) * w(j, o). -/
def mm {n k d : ℕ} (a : Mat n k) (w : Mat k d) : Mat n d :=
  fun i => ∑ j : Fin k, a (ix2 (i 0) j) * w (ix2 j (i 1))

/-- A one-row matrix added to every row: entry (p, j) gains b(0, j). -/
def addRow {n k : ℕ} (a : Mat n k) (b : Mat 1 k) : Mat n k :=
  fun i => a i + b (ix2 (0 : Fin 1) (i 1))

/-- Every entry floored at zero. -/
def relu {n k : ℕ} (a : Mat n k) : Mat n k := fun i => max (a i) floor0

/-! ## One row at a time -/

/-- Row q of ab is row p of a. -/
def RowEq {m n k : ℕ} (ab : Mat m k) (q : Fin m) (a : Mat n k) (p : Fin n) : Prop :=
  ∀ j : Fin k, ab (ix2 q j) = a (ix2 p j)

theorem mm_row {m n k d : ℕ} {ab : Mat m k} {q : Fin m} {a : Mat n k} {p : Fin n} (h : RowEq ab q a p) (w : Mat k d) :
    RowEq (mm ab w) q (mm a w) p := fun o => by
  show ∑ j : Fin k, ab (ix2 q j) * w (ix2 j o) = ∑ j : Fin k, a (ix2 p j) * w (ix2 j o)
  exact Finset.sum_congr rfl fun j _ => by rw [h j]

theorem addRow_row {m n k : ℕ} {ab : Mat m k} {q : Fin m} {a : Mat n k} {p : Fin n} (h : RowEq ab q a p) (b : Mat 1 k) :
    RowEq (addRow ab b) q (addRow a b) p := fun j => by
  show ab (ix2 q j) + b (ix2 (0 : Fin 1) j) = a (ix2 p j) + b (ix2 (0 : Fin 1) j)
  rw [h j]

theorem relu_row {m n k : ℕ} {ab : Mat m k} {q : Fin m} {a : Mat n k} {p : Fin n} (h : RowEq ab q a p) :
    RowEq (relu ab) q (relu a) p := fun j => by
  show max (ab (ix2 q j)) floor0 = max (a (ix2 p j)) floor0
  rw [h j]

/-! ## The machine's operations are these functions -/

/-- A matrix unit's product into the zero accumulator is the matrix product, whatever the operands' formats. -/
theorem matmul_eq_mm {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![n, k]⟩ φ₁) (r : FVec Ideal ⟨2, ![k, d]⟩ φ₂) :
    matmul D prec l r (constant ⟨2, ![n, d]⟩ .f32 0x00000000#32) = mm l r := by
  funext i
  obtain ⟨p, o, rfl⟩ : ∃ (p : Fin n) (o : Fin d), i = ix2 p o := ⟨i 0, i 1, eq_ix2 i⟩
  exact Cert.LibPlainDot.matmul_zero_apply D hlc hrc hln hrn hlb hrb prec l r p o

/-- The host's contraction with the same dimension numbers is the matrix product. -/
theorem dotGeneral_eq_mm {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![n, k]⟩ φ₁) (r : FVec Ideal ⟨2, ![k, d]⟩ φ₂) :
    Host.dotGeneral D prec l r = mm l r := by
  funext i
  obtain ⟨p, o, rfl⟩ : ∃ (p : Fin n) (o : Fin d), i = ix2 p o := ⟨i 0, i 1, eq_ix2 i⟩
  exact Cert.LibPlainDot.dotGeneral_apply D hlc hrc hln hrn hlb hrb prec .single l r p o

/-- Adding a one-row matrix spread over the rows is `addRow`. -/
theorem addf_spread_eq_addRow {n k : ℕ} (h : (⟨2, ![1, k]⟩ : Shape).Broadcasts ⟨2, ![n, k]⟩)
    (a : FVec Ideal ⟨2, ![n, k]⟩ .f32) (b : FVec Ideal ⟨2, ![1, k]⟩ .f32) :
    addf a (broadcastTo ⟨2, ![n, k]⟩ b h) = addRow a b := by
  funext i
  obtain ⟨p, j, rfl⟩ : ∃ (p : Fin n) (j : Fin k), i = ix2 p j := ⟨i 0, i 1, eq_ix2 i⟩
  show a (ix2 p j) + broadcastTo ⟨2, ![n, k]⟩ b h (ix2 p j) = a (ix2 p j) + b (ix2 (0 : Fin 1) j)
  rw [Cert.LibBiasRow.row_spread_apply h b p j]

/-- The maximum against a splat of the zero word is `relu`. -/
theorem maximumf_zero_eq_relu {n k : ℕ} (a : FVec Ideal ⟨2, ![n, k]⟩ .f32) :
    maximumf a (broadcast ⟨2, ![n, k]⟩ (Scalar.ofBits (F := Ideal) .f32 0x00000000#32)) = relu a := rfl

/-- A change to a narrower float format changes no extended real. -/
theorem truncf_eq {s : Shape} {φ ψ : FTy} (a : FVec Ideal s φ) (h : ψ.bits < φ.bits) :
    (truncf ψ a h : FVec Ideal s ψ) = a := rfl

/-! ## The host program's spellings -/

/-- Adding a vector placed as a row and spread over the rows is `addRow` of the vector reshaped to a row. -/
theorem addf_hostBias_eq_addRow {n k : ℕ} (h1 : (⟨1, ![k]⟩ : Shape).BroadcastsInDim ⟨2, ![1, k]⟩ ![1])
    (h2 : (⟨2, ![1, k]⟩ : Shape).BroadcastsInDim ⟨2, ![n, k]⟩ ![0, 1]) (hc : (⟨1, ![k]⟩ : Shape).ShapeCasts ⟨2, ![1, k]⟩)
    (a : FVec Ideal ⟨2, ![n, k]⟩ .f32) (v : FVec Ideal ⟨1, ![k]⟩ .f32) :
    addf a (broadcastInDim ⟨2, ![n, k]⟩ ![0, 1] h2 (broadcastInDim ⟨2, ![1, k]⟩ ![1] h1 v))
      = addRow a (shapeCast ⟨2, ![1, k]⟩ v hc) := by
  funext i
  obtain ⟨p, j, rfl⟩ : ∃ (p : Fin n) (j : Fin k), i = ix2 p j := ⟨i 0, i 1, eq_ix2 i⟩
  show a (ix2 p j) + broadcastInDim ⟨2, ![n, k]⟩ ![0, 1] h2 (broadcastInDim ⟨2, ![1, k]⟩ ![1] h1 v) (ix2 p j)
    = a (ix2 p j) + shapeCast ⟨2, ![1, k]⟩ v hc (ix2 (0 : Fin 1) j)
  rw [Cert.LibRowBroadcast.row_mat_apply h2 _ p j, Cert.LibRowBroadcast.vec_row_apply h1 v 0 j,
    Cert.LibBiasRow.vec_as_row_apply hc v 0 j]

/-- The maximum against the zero word spread from a scalar is `relu`. -/
theorem maximumf_hostZero_eq_relu {n k : ℕ} (h : (⟨0, ![]⟩ : Shape).BroadcastsInDim ⟨2, ![n, k]⟩ ![])
    (a : FVec Ideal ⟨2, ![n, k]⟩ .f32) :
    maximumf a (broadcastInDim ⟨2, ![n, k]⟩ ![] h (constant (F := Ideal) ⟨0, ![]⟩ .f32 0x00000000#32)) = relu a := by
  funext i
  show max (a i) (broadcastInDim ⟨2, ![n, k]⟩ ![] h (constant (F := Ideal) ⟨0, ![]⟩ .f32 0x00000000#32) i) = max (a i) floor0
  rw [broadcastInDim_apply ![] h _ i ix0 (fun a => a.elim0)]
  rfl

end Cert.LibRowStages

end
-- ==== Proof.Stage0.lean ====
/-
  Pipeline 0 of the kernel, read as a function of whole arrays: the first dense layer's product: each block of 2000 rows of the features times the whole weight matrix.

  A grid point t works on rows 2000 t … 2000 t + 1999: its first window's block is those rows of the first array, its
  second window's block is the whole second array at every point, and it writes back the same rows of the result.  The
  stage is row-local (row r of the stage of a block is row 2000 t + r of the stage of the whole array), so what point t
  writes back is block t of ONE function of the two arrays; the fifty blocks tile the 100000 rows, so the result array
  ends holding that function.  All of it is stated for ANY contents V the pipeline is entered with.
-/
import proofs.«156674_j5961414607058_1_alg».proof.Proof.Gen.KernelIdeal.Frame
import Idealize.ShloMosaic.Lib.Pipeline.Value
import Idealize.ShloMosaic.Lib.ValueIdx
import proofs.«156674_j5961414607058_1_alg».proof.Proof.LibRowStages

noncomputable section

namespace Cert.KernelIdeal.Stage0

open Cert.KernelIdeal Cert.KernelIdeal.Gen Idealize.ShloMosaic Idealize.ShloMosaic.TcCoe Idealize.SL.Sem
open Idealize.ShloMosaic.Pipeline (Dat)
open Idealize.ShloMosaic.ValueIdx Cert.LibRowStages

variable (V : (c : Dev nD) → (b : Ref sig .tc) → Buf (Elt Ideal) ((c : Thread nD τ).loc b))

theorem hz : (![0, 0] : Fin 2 → Nat) = fun _ => 0 := funext fun a => by fin_cases a <;> rfl

/-- The body on a block: the first dense layer's product: each block of 2000 rows of the features times the whole weight matrix. -/
theorem body_eq (x0 : Vec Ideal S2000x128 .f32) (x1 : Vec Ideal S128x128 .f32) :
    out0_2 x0 x1 = mm x0 x1 := by
  unfold out0_2
  rw [View.canon_unit_zero hz]
  simp only [View.ld_unit_zero (S := S2000x128) hz, View.ld_unit_zero (S := S128x128) hz]
  unfold k0_pay1
  exact matmul_eq_mm dot_S2000x128_S128x128_S2000x128_1_0_0_1_n_n rfl rfl rfl rfl rfl rfl none _ _

/-- The printed index maps over the fifty points: the first and the third window move down the rows with the point, the
    second stays on the whole array. -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 50 :=
  (by decide +kernel : ∀ t : Fin grid0.N, _)

/-- Row r of the first window's block at point t is row 2000 t + r of its array. -/
theorem iblk_rows (c : Dev nD) (t : Fin cfg0.N) (r : Fin 2000) (k : Fin 128) (R : Fin 100000)
    (hR : R.val = 2000 * t.val + r.val) :
    (iblk0 V c 0 t : Vec Ideal S2000x128 .f32) (ix2 r k) = (V c main_arg0 : Mat 100000 128) (ix2 R k) := by
  obtain ⟨e0, e1, -⟩ := idx t
  unfold iblk0
  rw [View.read_apply]
  show V c main_arg0 _ = V c main_arg0 _
  refine congrArg _ (funext fun a => Fin.ext ?_)
  match a with
  | ⟨0, _⟩ => show win0_0.index t (0 : Fin 2) * 2000 + 1 * r.val = R.val; rw [e0, hR]; omega
  | ⟨1, _⟩ => show win0_0.index t (1 : Fin 2) * 128 + 1 * k.val = k.val; rw [e1]; omega

/-- The second window's block is its whole array at every point. -/
theorem iblk_whole (c : Dev nD) (t : Fin cfg0.N) :
    (iblk0 V c 1 t : Vec Ideal S128x128 .f32) = (V c main_arg2 : Mat 128 128) := by
  obtain ⟨-, -, e2, e3, -⟩ := idx t
  refine funext fun (j : S128x128.Idx) => ?_
  unfold iblk0
  rw [View.read_apply]
  show V c main_arg2 _ = V c main_arg2 j
  refine congrArg _ (funext fun a => Fin.ext ?_)
  match a with
  | ⟨0, _⟩ => show win0_1.index t (0 : Fin 2) * 128 + 1 * (j 0).val = (j 0).val; rw [e2]; omega
  | ⟨1, _⟩ => show win0_1.index t (1 : Fin 2) * 128 + 1 * (j 1).val = (j 1).val; rw [e3]; omega

/-- What point t writes back is block t of the stage of the whole arrays. -/
theorem flushed_eq (c : Dev nD) (t : Fin cfg0.N) :
    (dat0 V c).flushed 2 t = ((cfg0.win 2).blk t).view.read (Elt Ideal) (mm (V c main_arg0 : Mat 100000 128) (V c main_arg2 : Mat 128 128)) := by
  show (cfg0.win 2).cut (grid0.coords t) ((dat0 V c).after 2 t) = _
  rw [after0_2]
  obtain ⟨-, -, -, -, e4, e5, ht⟩ := idx t
  refine funext fun (j : S2000x128.Idx) => ?_
  obtain ⟨r, o, rfl⟩ : ∃ (r : Fin 2000) (o : Fin 128), j = ix2 r o := ⟨j 0, j 1, eq_ix2 j⟩
  rw [View.read_apply]
  have hemb : ((cfg0.win 2).blk t).view.emb (ix2 r o)
      = (ix2 (⟨2000 * t.val + r.val, by omega⟩ : Fin 100000) o : S100000x128.Idx) :=
    funext fun a => Fin.ext (by
      match a with
      | ⟨0, _⟩ => show win0_2.index t (0 : Fin 2) * 2000 + 1 * r.val = 2000 * t.val + r.val; rw [e4]; omega
      | ⟨1, _⟩ => show win0_2.index t (1 : Fin 2) * 128 + 1 * o.val = o.val; rw [e5]; omega)
  rw [hemb]
  refine (congrFun (body_eq (iblk0 V c 0 t) (iblk0 V c 1 t)) (ix2 r o)).trans ?_
  rw [iblk_whole V c t]
  exact mm_row (fun k => iblk_rows V c t r k _ rfl) _ o

/-- An index of the result array lies in point t's block iff each coordinate lies in the block's range on its axis. -/
theorem mem_blk (t : Fin cfg0.N) (i : S100000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v27).slice (win0_2.rect t)).set ↔ _
  rw [View.set_slice_whole, Rect.mem_set_unit]
  exact Iff.rfl

/-- The point whose block holds row n. -/
def pointOf (n : Fin 100000) : Fin cfg0.N := ⟨n.val / 2000, by have hN : cfg0.N = 50 := N_0; rw [hN]; omega⟩

/-- Every index of the result array lies in some point's block: row n in the block of point n / 2000. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨-, -, -, -, e4, e5, -⟩ := idx (pointOf ⟨(i 0).val, hi0⟩)
  have e4' : win0_2.index (pointOf ⟨(i 0).val, hi0⟩) (0 : Fin 2) = (i 0).val / 2000 := e4
  refine ⟨pointOf ⟨(i 0).val, hi0⟩, flush0_2 _, ?_⟩
  rw [mem_blk]
  intro a
  match a with
  | ⟨0, _⟩ =>
    show win0_2.index (pointOf ⟨(i 0).val, hi0⟩) (0 : Fin 2) * 2000 ≤ (i 0).val
      ∧ (i 0).val < win0_2.index (pointOf ⟨(i 0).val, hi0⟩) (0 : Fin 2) * 2000 + 2000
    rw [e4']; omega
  | ⟨1, _⟩ =>
    show win0_2.index (pointOf ⟨(i 0).val, hi0⟩) (1 : Fin 2) * 128 ≤ (i 1).val
      ∧ (i 1).val < win0_2.index (pointOf ⟨(i 0).val, hi0⟩) (1 : Fin 2) * 128 + 128
    rw [e5]; omega

/-- The result array after the pipeline: the stage of the two arrays it was entered with. -/
theorem final (c : Dev nD) : (dat0 V c).arrAt 2 cfg0.N = mm (V c main_arg0 : Mat 100000 128) (V c main_arg2 : Mat 128 128) :=
  (dat0 V c).arrAt_eq_of_cover 2 _ (fun t _ => flushed_eq V c t) cover

end Cert.KernelIdeal.Stage0

end
-- ==== Proof.Stage1.lean ====
/-
  Pipeline 1 of the kernel, read as a function of whole arrays: the bias row added to each block of 2000 aggregated rows, floored at zero.

  A grid point t works on rows 2000 t … 2000 t + 1999: its first window's block is those rows of the first array, its
  second window's block is the whole second array at every point, and it writes back the same rows of the result.  The
  stage is row-local (row r of the stage of a block is row 2000 t + r of the stage of the whole array), so what point t
  writes back is block t of ONE function of the two arrays; the fifty blocks tile the 100000 rows, so the result array
  ends holding that function.  All of it is stated for ANY contents V the pipeline is entered with.
-/
import proofs.«156674_j5961414607058_1_alg».proof.Proof.Gen.KernelIdeal.Frame
import Idealize.ShloMosaic.Lib.Pipeline.Value
import Idealize.ShloMosaic.Lib.ValueIdx
import proofs.«156674_j5961414607058_1_alg».proof.Proof.LibRowStages

noncomputable section

namespace Cert.KernelIdeal.Stage1

open Cert.KernelIdeal Cert.KernelIdeal.Gen Idealize.ShloMosaic Idealize.ShloMosaic.TcCoe Idealize.SL.Sem
open Idealize.ShloMosaic.Pipeline (Dat)
open Idealize.ShloMosaic.ValueIdx Cert.LibRowStages

variable (V : (c : Dev nD) → (b : Ref sig .tc) → Buf (Elt Ideal) ((c : Thread nD τ).loc b))

theorem hz : (![0, 0] : Fin 2 → Nat) = fun _ => 0 := funext fun a => by fin_cases a <;> rfl

/-- The body on a block: the bias row added to each block of 2000 aggregated rows, floored at zero. -/
theorem body_eq (x0 : Vec Ideal S2000x128 .f32) (x1 : Vec Ideal S1x128 .f32) :
    out1_2 x0 x1 = relu (addRow x0 x1) := by
  unfold out1_2
  rw [View.canon_unit_zero hz]
  simp only [View.ld_unit_zero (S := S2000x128) hz, View.ld_unit_zero (S := S1x128) hz]
  unfold k1_pay1
  simp only [shapeCast_self]
  exact congrArg relu (addf_spread_eq_addRow broadcasts_S1x128_S2000x128 x0 x1)

/-- The printed index maps over the fifty points: the first and the third window move down the rows with the point, the
    second stays on the whole array. -/
theorem idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 ∧ t.val < 50 :=
  (by decide +kernel : ∀ t : Fin grid1.N, _)

/-- Row r of the first window's block at point t is row 2000 t + r of its array. -/
theorem iblk_rows (c : Dev nD) (t : Fin cfg1.N) (r : Fin 2000) (k : Fin 128) (R : Fin 100000)
    (hR : R.val = 2000 * t.val + r.val) :
    (iblk1 V c 0 t : Vec Ideal S2000x128 .f32) (ix2 r k) = (V c main_v40 : Mat 100000 128) (ix2 R k) := by
  obtain ⟨e0, e1, -⟩ := idx t
  unfold iblk1
  rw [View.read_apply]
  show V c main_v40 _ = V c main_v40 _
  refine congrArg _ (funext fun a => Fin.ext ?_)
  match a with
  | ⟨0, _⟩ => show win1_0.index t (0 : Fin 2) * 2000 + 1 * r.val = R.val; rw [e0, hR]; omega
  | ⟨1, _⟩ => show win1_0.index t (1 : Fin 2) * 128 + 1 * k.val = k.val; rw [e1]; omega

/-- The second window's block is its whole array at every point. -/
theorem iblk_whole (c : Dev nD) (t : Fin cfg1.N) :
    (iblk1 V c 1 t : Vec Ideal S1x128 .f32) = (V c main_v41 : Mat 1 128) := by
  obtain ⟨-, -, e2, e3, -⟩ := idx t
  refine funext fun (j : S1x128.Idx) => ?_
  unfold iblk1
  rw [View.read_apply]
  show V c main_v41 _ = V c main_v41 j
  refine congrArg _ (funext fun a => Fin.ext ?_)
  match a with
  | ⟨0, _⟩ => show win1_1.index t (0 : Fin 2) * 1 + 1 * (j 0).val = (j 0).val; rw [e2]; omega
  | ⟨1, _⟩ => show win1_1.index t (1 : Fin 2) * 128 + 1 * (j 1).val = (j 1).val; rw [e3]; omega

/-- What point t writes back is block t of the stage of the whole arrays. -/
theorem flushed_eq (c : Dev nD) (t : Fin cfg1.N) :
    (dat1 V c).flushed 2 t = ((cfg1.win 2).blk t).view.read (Elt Ideal) (relu (addRow (V c main_v40 : Mat 100000 128) (V c main_v41 : Mat 1 128))) := by
  show (cfg1.win 2).cut (grid1.coords t) ((dat1 V c).after 2 t) = _
  rw [after1_2]
  obtain ⟨-, -, -, -, e4, e5, ht⟩ := idx t
  refine funext fun (j : S2000x128.Idx) => ?_
  obtain ⟨r, o, rfl⟩ : ∃ (r : Fin 2000) (o : Fin 128), j = ix2 r o := ⟨j 0, j 1, eq_ix2 j⟩
  rw [View.read_apply]
  have hemb : ((cfg1.win 2).blk t).view.emb (ix2 r o)
      = (ix2 (⟨2000 * t.val + r.val, by omega⟩ : Fin 100000) o : S100000x128.Idx) :=
    funext fun a => Fin.ext (by
      match a with
      | ⟨0, _⟩ => show win1_2.index t (0 : Fin 2) * 2000 + 1 * r.val = 2000 * t.val + r.val; rw [e4]; omega
      | ⟨1, _⟩ => show win1_2.index t (1 : Fin 2) * 128 + 1 * o.val = o.val; rw [e5]; omega)
  rw [hemb]
  refine (congrFun (body_eq (iblk1 V c 0 t) (iblk1 V c 1 t)) (ix2 r o)).trans ?_
  rw [iblk_whole V c t]
  exact relu_row (addRow_row (fun k => iblk_rows V c t r k _ rfl) _) o

/-- An index of the result array lies in point t's block iff each coordinate lies in the block's range on its axis. -/
theorem mem_blk (t : Fin cfg1.N) (i : S100000x128.Idx) :
    i ∈ ((cfg1.win 2).blk t).view.set ↔ ∀ a : Fin 2, win1_2.index t a * S2000x128.size a ≤ (i a).val
      ∧ (i a).val < win1_2.index t a * S2000x128.size a + S2000x128.size a := by
  show i ∈ ((View.whole main_v42).slice (win1_2.rect t)).set ↔ _
  rw [View.set_slice_whole, Rect.mem_set_unit]
  exact Iff.rfl

/-- The point whose block holds row n. -/
def pointOf (n : Fin 100000) : Fin cfg1.N := ⟨n.val / 2000, by have hN : cfg1.N = 50 := N_1; rw [hN]; omega⟩

/-- Every index of the result array lies in some point's block: row n in the block of point n / 2000. -/
theorem cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  obtain ⟨-, -, -, -, e4, e5, -⟩ := idx (pointOf ⟨(i 0).val, hi0⟩)
  have e4' : win1_2.index (pointOf ⟨(i 0).val, hi0⟩) (0 : Fin 2) = (i 0).val / 2000 := e4
  refine ⟨pointOf ⟨(i 0).val, hi0⟩, flush1_2 _, ?_⟩
  rw [mem_blk]
  intro a
  match a with
  | ⟨0, _⟩ =>
    show win1_2.index (pointOf ⟨(i 0).val, hi0⟩) (0 : Fin 2) * 2000 ≤ (i 0).val
      ∧ (i 0).val < win1_2.index (pointOf ⟨(i 0).val, hi0⟩) (0 : Fin 2) * 2000 + 2000
    rw [e4']; omega
  | ⟨1, _⟩ =>
    show win1_2.index (pointOf ⟨(i 0).val, hi0⟩) (1 : Fin 2) * 128 ≤ (i 1).val
      ∧ (i 1).val < win1_2.index (pointOf ⟨(i 0).val, hi0⟩) (1 : Fin 2) * 128 + 128
    rw [e5]; omega

/-- The result array after the pipeline: the stage of the two arrays it was entered with. -/
theorem final (c : Dev nD) : (dat1 V c).arrAt 2 cfg1.N = relu (addRow (V c main_v40 : Mat 100000 128) (V c main_v41 : Mat 1 128)) :=
  (dat1 V c).arrAt_eq_of_cover 2 _ (fun t _ => flushed_eq V c t) cover

end Cert.KernelIdeal.Stage1

end
-- ==== Proof.Stage2.lean ====
/-
  Pipeline 2 of the kernel, read as a function of whole arrays: the second dense layer's product: each block of 2000 hidden rows times the whole second weight matrix.

  A grid point t works on rows 2000 t … 2000 t + 1999: its first window's block is those rows of the first array, its
  second window's block is the whole second array at every point, and it writes back the same rows of the result.  The
  stage is row-local (row r of the stage of a block is row 2000 t + r of the stage of the whole array), so what point t
  writes back is block t of ONE function of the two arrays; the fifty blocks tile the 100000 rows, so the result array
  ends holding that function.  All of it is stated for ANY contents V the pipeline is entered with.
-/
import proofs.«156674_j5961414607058_1_alg».proof.Proof.Gen.KernelIdeal.Frame
import Idealize.ShloMosaic.Lib.Pipeline.Value
import Idealize.ShloMosaic.Lib.ValueIdx
import proofs.«156674_j5961414607058_1_alg».proof.Proof.LibRowStages

noncomputable section

namespace Cert.KernelIdeal.Stage2

open Cert.KernelIdeal Cert.KernelIdeal.Gen Idealize.ShloMosaic Idealize.ShloMosaic.TcCoe Idealize.SL.Sem
open Idealize.ShloMosaic.Pipeline (Dat)
open Idealize.ShloMosaic.ValueIdx Cert.LibRowStages

variable (V : (c : Dev nD) → (b : Ref sig .tc) → Buf (Elt Ideal) ((c : Thread nD τ).loc b))

theorem hz : (![0, 0] : Fin 2 → Nat) = fun _ => 0 := funext fun a => by fin_cases a <;> rfl

/-- The body on a block: the second dense layer's product: each block of 2000 hidden rows times the whole second weight matrix. -/
theorem body_eq (x0 : Vec Ideal S2000x128 .f32) (x1 : Vec Ideal S128x64 .f32) :
    out2_2 x0 x1 = mm x0 x1 := by
  unfold out2_2
  rw [View.canon_unit_zero hz]
  simp only [View.ld_unit_zero (S := S2000x128) hz, View.ld_unit_zero (S := S128x64) hz, View.ld_unit_zero (S := S2000x64) hz]
  unfold k2_pay1
  simp only [shapeCast_self]
  exact matmul_eq_mm dot_S2000x128_S128x64_S2000x64_1_0_0_1_n_n rfl rfl rfl rfl rfl rfl none _ _

/-- The printed index maps over the fifty points: the first and the third window move down the rows with the point, the
    second stays on the whole array. -/
theorem idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 ∧ t.val < 50 :=
  (by decide +kernel : ∀ t : Fin grid2.N, _)

/-- Row r of the first window's block at point t is row 2000 t + r of its array. -/
theorem iblk_rows (c : Dev nD) (t : Fin cfg2.N) (r : Fin 2000) (k : Fin 128) (R : Fin 100000)
    (hR : R.val = 2000 * t.val + r.val) :
    (iblk2 V c 0 t : Vec Ideal S2000x128 .f32) (ix2 r k) = (V c main_v42 : Mat 100000 128) (ix2 R k) := by
  obtain ⟨e0, e1, -⟩ := idx t
  unfold iblk2
  rw [View.read_apply]
  show V c main_v42 _ = V c main_v42 _
  refine congrArg _ (funext fun a => Fin.ext ?_)
  match a with
  | ⟨0, _⟩ => show win2_0.index t (0 : Fin 2) * 2000 + 1 * r.val = R.val; rw [e0, hR]; omega
  | ⟨1, _⟩ => show win2_0.index t (1 : Fin 2) * 128 + 1 * k.val = k.val; rw [e1]; omega

/-- The second window's block is its whole array at every point. -/
theorem iblk_whole (c : Dev nD) (t : Fin cfg2.N) :
    (iblk2 V c 1 t : Vec Ideal S128x64 .f32) = (V c main_arg4 : Mat 128 64) := by
  obtain ⟨-, -, e2, e3, -⟩ := idx t
  refine funext fun (j : S128x64.Idx) => ?_
  unfold iblk2
  rw [View.read_apply]
  show V c main_arg4 _ = V c main_arg4 j
  refine congrArg _ (funext fun a => Fin.ext ?_)
  match a with
  | ⟨0, _⟩ => show win2_1.index t (0 : Fin 2) * 128 + 1 * (j 0).val = (j 0).val; rw [e2]; omega
  | ⟨1, _⟩ => show win2_1.index t (1 : Fin 2) * 64 + 1 * (j 1).val = (j 1).val; rw [e3]; omega

/-- What point t writes back is block t of the stage of the whole arrays. -/
theorem flushed_eq (c : Dev nD) (t : Fin cfg2.N) :
    (dat2 V c).flushed 2 t = ((cfg2.win 2).blk t).view.read (Elt Ideal) (mm (V c main_v42 : Mat 100000 128) (V c main_arg4 : Mat 128 64)) := by
  show (cfg2.win 2).cut (grid2.coords t) ((dat2 V c).after 2 t) = _
  rw [after2_2]
  obtain ⟨-, -, -, -, e4, e5, ht⟩ := idx t
  refine funext fun (j : S2000x64.Idx) => ?_
  obtain ⟨r, o, rfl⟩ : ∃ (r : Fin 2000) (o : Fin 64), j = ix2 r o := ⟨j 0, j 1, eq_ix2 j⟩
  rw [View.read_apply]
  have hemb : ((cfg2.win 2).blk t).view.emb (ix2 r o)
      = (ix2 (⟨2000 * t.val + r.val, by omega⟩ : Fin 100000) o : S100000x64.Idx) :=
    funext fun a => Fin.ext (by
      match a with
      | ⟨0, _⟩ => show win2_2.index t (0 : Fin 2) * 2000 + 1 * r.val = 2000 * t.val + r.val; rw [e4]; omega
      | ⟨1, _⟩ => show win2_2.index t (1 : Fin 2) * 64 + 1 * o.val = o.val; rw [e5]; omega)
  rw [hemb]
  refine (congrFun (body_eq (iblk2 V c 0 t) (iblk2 V c 1 t)) (ix2 r o)).trans ?_
  rw [iblk_whole V c t]
  exact mm_row (fun k => iblk_rows V c t r k _ rfl) _ o

/-- An index of the result array lies in point t's block iff each coordinate lies in the block's range on its axis. -/
theorem mem_blk (t : Fin cfg2.N) (i : S100000x64.Idx) :
    i ∈ ((cfg2.win 2).blk t).view.set ↔ ∀ a : Fin 2, win2_2.index t a * S2000x64.size a ≤ (i a).val
      ∧ (i a).val < win2_2.index t a * S2000x64.size a + S2000x64.size a := by
  show i ∈ ((View.whole main_v43).slice (win2_2.rect t)).set ↔ _
  rw [View.set_slice_whole, Rect.mem_set_unit]
  exact Iff.rfl

/-- The point whose block holds row n. -/
def pointOf (n : Fin 100000) : Fin cfg2.N := ⟨n.val / 2000, by have hN : cfg2.N = 50 := N_2; rw [hN]; omega⟩

/-- Every index of the result array lies in some point's block: row n in the block of point n / 2000. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  obtain ⟨-, -, -, -, e4, e5, -⟩ := idx (pointOf ⟨(i 0).val, hi0⟩)
  have e4' : win2_2.index (pointOf ⟨(i 0).val, hi0⟩) (0 : Fin 2) = (i 0).val / 2000 := e4
  refine ⟨pointOf ⟨(i 0).val, hi0⟩, flush2_2 _, ?_⟩
  rw [mem_blk]
  intro a
  match a with
  | ⟨0, _⟩ =>
    show win2_2.index (pointOf ⟨(i 0).val, hi0⟩) (0 : Fin 2) * 2000 ≤ (i 0).val
      ∧ (i 0).val < win2_2.index (pointOf ⟨(i 0).val, hi0⟩) (0 : Fin 2) * 2000 + 2000
    rw [e4']; omega
  | ⟨1, _⟩ =>
    show win2_2.index (pointOf ⟨(i 0).val, hi0⟩) (1 : Fin 2) * 64 ≤ (i 1).val
      ∧ (i 1).val < win2_2.index (pointOf ⟨(i 0).val, hi0⟩) (1 : Fin 2) * 64 + 64
    rw [e5]; omega

/-- The result array after the pipeline: the stage of the two arrays it was entered with. -/
theorem final (c : Dev nD) : (dat2 V c).arrAt 2 cfg2.N = mm (V c main_v42 : Mat 100000 128) (V c main_arg4 : Mat 128 64) :=
  (dat2 V c).arrAt_eq_of_cover 2 _ (fun t _ => flushed_eq V c t) cover

end Cert.KernelIdeal.Stage2

end
-- ==== Proof.LibRowReduce.lean ====
/-
  Reductions along the rows of a matrix, read at one row.

  For an [n, d] matrix reduced over its second axis into an [n] vector, the entry at row p is the reduction of the
  entries (p, 0), …, (p, d-1): a sum for an add-reduction, the fold of `max` from the start value for a
  maximum-reduction.  Stated for the kernel's vector reductions and for the host's one-operand reduce, at the
  extended reals, for any extents and float format.
-/
import Idealize.ShloMosaic.PureOps.Ideal.Laws
import Idealize.ShloMosaic.Lib.ValueIdx

noncomputable section
namespace Cert.LibRowReduce
open Idealize.ShloMosaic Idealize.ShloMosaic.ValueIdx

variable {φ : FTy}

/-- Row p with the coordinate o put back on the reduced axis is the entry (p, o). -/
theorem lift_row {n d : ℕ} (h : (⟨2, ![n, d]⟩ : Shape).Reduces [1] ⟨1, ![n]⟩) (p : Fin n) (o : Fin d) :
    h.lift (ix1 p) o = ix2 p o :=
  funext fun a => Fin.ext (by
    match a with
    | ⟨0, _⟩ => rfl
    | ⟨1, _⟩ => rfl)

/-- A vector add-reduction along the rows: the row's sum. -/
theorem multiReduction_add_row {n d : ℕ} (src : FVec Ideal ⟨2, ![n, d]⟩ φ) (acc : BitVec φ.bits)
    (h : (⟨2, ![n, d]⟩ : Shape).Reduces [1] ⟨1, ![n]⟩) (hφ : FKind.Formats φ) (hacc : acc = FKind.add.neutral φ hφ) (p : Fin n) :
    multiReduction .add [1] ⟨1, ![n]⟩ src acc h hφ hacc (ix1 p) = ∑ o : Fin d, src (ix2 p o) :=
  (Ideal.multiReduction_add_single src acc h hφ hacc (ix1 p)).trans
    (Finset.sum_congr rfl fun o _ => congrArg src (lift_row h p o))

/-- A vector maximum-reduction along the rows: the fold of `max` over the row from the accumulator's value. -/
theorem multiReduction_max_row {n d : ℕ} (src : FVec Ideal ⟨2, ![n, d]⟩ φ) (acc : BitVec φ.bits)
    (h : (⟨2, ![n, d]⟩ : Shape).Reduces [1] ⟨1, ![n]⟩) (hφ : FKind.Formats φ) (hacc : acc = FKind.maximumf.neutral φ hφ) (p : Fin n) :
    multiReduction .maximumf [1] ⟨1, ![n]⟩ src acc h hφ hacc (ix1 p)
      = (Finset.univ : Finset (Fin d)).fold max (Ideal.ofBits φ acc) (fun o => src (ix2 p o)) :=
  (Ideal.multiReduction_maximumf_single src acc h hφ hacc (ix1 p)).trans
    (congrArg (Finset.fold max (Ideal.ofBits φ acc) · Finset.univ) (funext fun o => congrArg src (lift_row h p o)))

/-- The host's add-reduce along the rows: the start value plus the row's sum. -/
theorem hostReduceAdd_row {n d : ℕ} {u : Shape} (x : FVec Ideal ⟨2, ![n, d]⟩ φ) (init : u.Idx → Ideal φ)
    (h' : (⟨2, ![n, d]⟩ : Shape).ReducesTo [1] ⟨1, ![n]⟩) (h : (⟨2, ![n, d]⟩ : Shape).Reduces [1] ⟨1, ![n]⟩) (hu : 0 < u.numel) (p : Fin n) :
    Host.reduceAdd x init h' hu (ix1 p) = init (Shape.Idx.first hu) + ∑ o : Fin d, x (ix2 p o) :=
  (Ideal.hostReduceAdd_single h' h x (init (Shape.Idx.first hu)) (ix1 p)).trans
    (congrArg (init (Shape.Idx.first hu) + ·) (Finset.sum_congr rfl fun o _ => congrArg x (lift_row h p o)))

/-- The host's maximum-reduce along the rows: the fold of `max` over the row from the start value. -/
theorem hostReduce_max_row {n d : ℕ} {u : Shape} (x : FVec Ideal ⟨2, ![n, d]⟩ φ) (init : u.Idx → Ideal φ)
    (h' : (⟨2, ![n, d]⟩ : Shape).ReducesTo [1] ⟨1, ![n]⟩) (h : (⟨2, ![n, d]⟩ : Shape).Reduces [1] ⟨1, ![n]⟩) (hu : 0 < u.numel) (p : Fin n) :
    Host.reduce (FloatOps.maximumf (F := Ideal) (φ := φ)) x init h' hu (ix1 p)
      = (Finset.univ : Finset (Fin d)).fold max (init (Shape.Idx.first hu)) (fun o => x (ix2 p o)) :=
  (Host.reduce_eq_fold_single (FloatOps.maximumf (F := Ideal) (φ := φ)) x init h' h hu (ix1 p)).trans
    (congrArg (Finset.fold max (init (Shape.Idx.first hu)) · Finset.univ) (funext fun o => congrArg x (lift_row h p o)))

end Cert.LibRowReduce
end
-- ==== Proof.LibKeepdims.lean ====
/-
  Two layout operations of a "keep the reduced axis" column, read at an index: a vector [a] cast to a column [a, 1],
  and a column [a, 1] broadcast along a second axis to [a, b]. General in the extents and in the element type.
-/
import Idealize.ShloMosaic.Lib.Pipeline.Value
import Idealize.ShloMosaic.Lib.ValueIdx

noncomputable section

namespace Cert.LibKeepdims

open Idealize.ShloMosaic Idealize.ShloMosaic.ValueIdx

variable {α : Type}

/-- An `[a]` array cast to the column `[a, 1]` reads, at `(i, 0)`, the operand at `i`: both sit at row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : Fin 1).val = if (1 : ℕ) = 1 then 0 else c.val
    rw [if_pos rfl]; rfl

end Cert.LibKeepdims

end
-- ==== Proof.LibBroadcastInDim.lean ====
/-
  THREE BROADCASTS READ AT AN INDEX. A vector `[E]` laid as a column `[E, 1]` reads the vector at the row; a column
  `[E, 1]` spread over `D` columns reads the column at the row, whatever the column; a scalar spread over any shape
  reads the scalar. Each is the library's `broadcastInDim_apply` with the operand index named and its coordinates
  discharged axis by axis (the scalar has no axis; the library's `broadcastInDim_scalar_apply` is the same fact at
  the empty vector literal for `dims`).
-/
import Idealize.ShloMosaic.Lib.ValueIdx
import Idealize.ShloMosaic.Lib.Pipeline.Value

namespace Cert.LibBroadcastInDim

open Idealize.ShloMosaic Idealize.ShloMosaic.ValueIdx

/-- A vector as a column: element `(e, u)` of the column is element `e` of the vector (also when `E = 1`, where the
    operand's one axis is a unit axis read at `0 = e`). -/
theorem vec_col_apply {α : Type} {E : ℕ} (h : (⟨1, ![E]⟩ : Shape).BroadcastsInDim ⟨2, ![E, 1]⟩ ![0])
    (v : (⟨1, ![E]⟩ : Shape).Idx → α) (e : Fin E) (u : Fin 1) :
    broadcastInDim ⟨2, ![E, 1]⟩ ![0] h v (ix2 e u) = v (ix1 e) :=
  broadcastInDim_apply ![0] h v (ix2 e u) (ix1 e) (fun a => by
    match a with
    | ⟨0, _⟩ =>
      show e.val = if E = 1 then 0 else e.val
      split
      · have := e.isLt; omega
      · rfl)

/-- A column spread over `D` columns: element `(e, f)` is the column's element `(e, 0)` (the operand's second axis is a
    unit axis; its first is read at the row, also when `E = 1`). -/
theorem col_mat_apply {α : Type} {E D : ℕ} (h : (⟨2, ![E, 1]⟩ : Shape).BroadcastsInDim ⟨2, ![E, D]⟩ ![0, 1])
    (v : (⟨2, ![E, 1]⟩ : Shape).Idx → α) (e : Fin E) (f : Fin D) :
    broadcastInDim ⟨2, ![E, D]⟩ ![0, 1] h v (ix2 e f) = v (ix2 e (0 : Fin 1)) :=
  broadcastInDim_apply ![0, 1] h v (ix2 e f) (ix2 e (0 : Fin 1)) (fun a => by
    match a with
    | ⟨0, _⟩ =>
      show e.val = if E = 1 then 0 else e.val
      split
      · have := e.isLt; omega
      · rfl
    | ⟨1, _⟩ => rfl)

/-- A scalar spread over any shape reads the scalar: there is one map from no axes, so `dims` is the empty one. -/
theorem scalar_apply {α : Type} {t : Shape} (dims : Fin 0 → Fin t.rank)
    (h : (⟨0, ![]⟩ : Shape).BroadcastsInDim t dims) (v : (⟨0, ![]⟩ : Shape).Idx → α) (j : t.Idx) :
    broadcastInDim t dims h v j = v ix0 :=
  broadcastInDim_apply dims h v j ix0 (fun a => a.elim0)

end Cert.LibBroadcastInDim
-- ==== Proof.LibLogSoftmaxRows.lean ====
/-
  The logarithm of the softmax along the rows of a matrix of extended reals.

  For an [n, d] matrix z, row p has the maximum M(p): the fold of max over z(p, 0), …, z(p, d-1) from what the word
  0xFF800000 of the 32-bit float format denotes.  The shifted matrix has s(p, o) = z(p, o) - M(p), and the result has
      (p, o)  ↦  s(p, o) - log (sum over o' of exp s(p, o')).
  Row p of the result depends on row p of z only (`logSoftmax_row`): if row q of zb is row p of z, then row q of the
  result for zb is row p of the result for z.  So the stage computed on a block of rows is the same rows of the stage
  of the whole matrix.

  Both machine spellings are this function, entry by entry, on the extended reals.  The vector unit reduces along the
  rows into a vector, casts it to a column and spreads the column over the row; the host reduces, places the vector as a
  column and spreads it.  The two apply the same operations to the same operands in the same order, so nothing is
  cancelled or distributed and no entry needs to be finite.  Two small differences are absorbed here: the host takes the
  maximum of the row maximum with a splat of the start value once more, which changes nothing since a fold of max lies
  above its start; and the host's sum starts from the zero word, which denotes 0, where the unit's sum has no start term.
-/
import Idealize.ShloMosaic.PureOps.Ideal
import Idealize.ShloMosaic.PureOps.Ideal.Laws
import Idealize.ShloMosaic.Lib.ValueIdx
import Idealize.ShloMosaic.Lib.Pipeline.Value
import proofs.«156674_j5961414607058_1_alg».proof.Proof.LibRowStages
import proofs.«156674_j5961414607058_1_alg».proof.Proof.LibRowReduce
import proofs.«156674_j5961414607058_1_alg».proof.Proof.LibKeepdims
import proofs.«156674_j5961414607058_1_alg».proof.Proof.LibBroadcastInDim

noncomputable section

open scoped BigOperators

namespace Cert.LibLogSoftmaxRows

open Idealize.ShloMosaic Idealize.ShloMosaic.ValueIdx Cert.LibRowStages

/-- Where a row maximum starts: what the word 0xFF800000 denotes (never evaluated: the same word stands on both sides). -/
def start : EReal := Ideal.ofBits .f32 0xFF800000#32

/-- The maximum of row p. -/
def rowMax {n d : ℕ} (z : Mat n d) (p : Fin n) : EReal :=
  (Finset.univ : Finset (Fin d)).fold max start (fun o => z (ix2 p o))

/-- Every entry less its row's maximum. -/
def shift {n d : ℕ} (z : Mat n d) : Mat n d := fun i => z i - rowMax z (i 0)

/-- The logarithm of the sum of the exponentials of row p. -/
def logSumExp {n d : ℕ} (s : Mat n d) (p : Fin n) : EReal := Ideal.log (∑ o : Fin d, Ideal.exp (s (ix2 p o)))

/-- The logarithm of the softmax of each row. -/
def logSoftmax {n d : ℕ} (z : Mat n d) : Mat n d := fun i => shift z i - logSumExp (shift z) (i 0)

/-! ## One row at a time -/

theorem rowMax_row {m n d : ℕ} {zb : Mat m d} {q : Fin m} {z : Mat n d} {p : Fin n} (h : RowEq zb q z p) :
    rowMax zb q = rowMax z p :=
  congrArg (Finset.fold max start · Finset.univ) (funext h)

theorem shift_row {m n d : ℕ} {zb : Mat m d} {q : Fin m} {z : Mat n d} {p : Fin n} (h : RowEq zb q z p) :
    RowEq (shift zb) q (shift z) p := fun j => by
  show zb (ix2 q j) - rowMax zb q = z (ix2 p j) - rowMax z p
  rw [h j, rowMax_row h]

theorem logSumExp_row {m n d : ℕ} {sb : Mat m d} {q : Fin m} {s : Mat n d} {p : Fin n} (h : RowEq sb q s p) :
    logSumExp sb q = logSumExp s p :=
  congrArg Ideal.log (Finset.sum_congr rfl fun o _ => congrArg Ideal.exp (h o))

theorem logSoftmax_row {m n d : ℕ} {zb : Mat m d} {q : Fin m} {z : Mat n d} {p : Fin n} (h : RowEq zb q z p) :
    RowEq (logSoftmax zb) q (logSoftmax z) p := fun j => by
  show shift zb (ix2 q j) - logSumExp (shift zb) q = shift z (ix2 p j) - logSumExp (shift z) p
  rw [shift_row h j, logSumExp_row (shift_row h)]

/-! ## The vector unit's spelling -/

/-- The row maximum reduced into a vector, cast to a column, spread over the row and subtracted. -/
theorem unit_shift {n d : ℕ} (z : FVec Ideal ⟨2, ![n, d]⟩ .f32)
    (hr : (⟨2, ![n, d]⟩ : Shape).Reduces [1] ⟨1, ![n]⟩) (hφ : FKind.Formats FTy.f32)
    (hacc : (0xFF800000#32 : BitVec FTy.f32.bits) = FKind.maximumf.neutral .f32 hφ)
    (hc : (⟨1, ![n]⟩ : Shape).ShapeCasts ⟨2, ![n, 1]⟩) (hb : (⟨2, ![n, 1]⟩ : Shape).Broadcasts ⟨2, ![n, d]⟩) :
    subf z (broadcastTo ⟨2, ![n, d]⟩ (shapeCast ⟨2, ![n, 1]⟩
        (multiReduction .maximumf [1] ⟨1, ![n]⟩ z 0xFF800000#32 hr hφ hacc) hc) hb) = shift z := by
  funext i
  obtain ⟨p, o, rfl⟩ : ∃ (p : Fin n) (o : Fin d), i = ix2 p o := ⟨i 0, i 1, eq_ix2 i⟩
  show z (ix2 p o) - broadcastTo ⟨2, ![n, d]⟩ (shapeCast ⟨2, ![n, 1]⟩
        (multiReduction .maximumf [1] ⟨1, ![n]⟩ z 0xFF800000#32 hr hφ hacc) hc) hb (ix2 p o) = z (ix2 p o) - rowMax z p
  rw [Cert.LibKeepdims.broadcastTo_a1_ab_apply _ hb p o, Cert.LibKeepdims.shapeCast_a_a1_apply _ hc p 0,
    Cert.LibRowReduce.multiReduction_max_row z _ hr hφ hacc p]
  rfl

/-- The exponentials summed along the rows into a vector, cast to a column, the logarithm taken, spread over the row. -/
theorem unit_logSumExp {n d : ℕ} (s : FVec Ideal ⟨2, ![n, d]⟩ .f32)
    (hr : (⟨2, ![n, d]⟩ : Shape).Reduces [1] ⟨1, ![n]⟩) (hφ : FKind.Formats FTy.f32)
    (hacc : (0x00000000#32 : BitVec FTy.f32.bits) = FKind.add.neutral .f32 hφ)
    (hc : (⟨1, ![n]⟩ : Shape).ShapeCasts ⟨2, ![n, 1]⟩) (hb : (⟨2, ![n, 1]⟩ : Shape).Broadcasts ⟨2, ![n, d]⟩) :
    broadcastTo ⟨2, ![n, d]⟩ (log (shapeCast ⟨2, ![n, 1]⟩
        (multiReduction .add [1] ⟨1, ![n]⟩ (exp s) 0x00000000#32 hr hφ hacc) hc)) hb
      = fun i => logSumExp s (i 0) := by
  funext i
  obtain ⟨p, o, rfl⟩ : ∃ (p : Fin n) (o : Fin d), i = ix2 p o := ⟨i 0, i 1, eq_ix2 i⟩
  rw [Cert.LibKeepdims.broadcastTo_a1_ab_apply _ hb p o]
  show Ideal.log (shapeCast ⟨2, ![n, 1]⟩ (multiReduction .add [1] ⟨1, ![n]⟩ (exp s) 0x00000000#32 hr hφ hacc) hc (ix2 p (0 : Fin 1)))
    = logSumExp s p
  rw [Cert.LibKeepdims.shapeCast_a_a1_apply _ hc p 0, Cert.LibRowReduce.multiReduction_add_row (exp s) _ hr hφ hacc p]
  rfl

/-- The vector unit's logarithm of the softmax along the rows. -/
theorem unit_eq_logSoftmax {n d : ℕ} (z : FVec Ideal ⟨2, ![n, d]⟩ .f32)
    (hr : (⟨2, ![n, d]⟩ : Shape).Reduces [1] ⟨1, ![n]⟩) (hφ : FKind.Formats FTy.f32)
    (hmax : (0xFF800000#32 : BitVec FTy.f32.bits) = FKind.maximumf.neutral .f32 hφ)
    (hadd : (0x00000000#32 : BitVec FTy.f32.bits) = FKind.add.neutral .f32 hφ)
    (hc : (⟨1, ![n]⟩ : Shape).ShapeCasts ⟨2, ![n, 1]⟩) (hb : (⟨2, ![n, 1]⟩ : Shape).Broadcasts ⟨2, ![n, d]⟩) :
    subf (subf z (broadcastTo ⟨2, ![n, d]⟩ (shapeCast ⟨2, ![n, 1]⟩
          (multiReduction .maximumf [1] ⟨1, ![n]⟩ z 0xFF800000#32 hr hφ hmax) hc) hb))
      (broadcastTo ⟨2, ![n, d]⟩ (log (shapeCast ⟨2, ![n, 1]⟩
          (multiReduction .add [1] ⟨1, ![n]⟩ (exp (subf z (broadcastTo ⟨2, ![n, d]⟩ (shapeCast ⟨2, ![n, 1]⟩
            (multiReduction .maximumf [1] ⟨1, ![n]⟩ z 0xFF800000#32 hr hφ hmax) hc) hb))) 0x00000000#32 hr hφ hadd) hc)) hb)
      = logSoftmax z := by
  rw [unit_shift z hr hφ hmax hc hb, unit_logSumExp (shift z) hr hφ hadd hc hb]
  rfl

/-! ## The host's spelling -/

/-- A fold of max lies above its start. -/
theorem max_start_fold {ι : Type} (s : Finset ι) (a : EReal) (f : ι → EReal) : max a (s.fold max a f) = s.fold max a f :=
  max_eq_right ((Finset.le_fold_max a).mpr (Or.inl le_rfl))

/-- The row maximum reduced into a vector, maximised once more against a splat of the start value, placed as a column,
    spread over the row and subtracted. -/
theorem host_shift {n d : ℕ} (z : FVec Ideal ⟨2, ![n, d]⟩ .f32)
    (hr' : (⟨2, ![n, d]⟩ : Shape).ReducesTo [1] ⟨1, ![n]⟩) (hr : (⟨2, ![n, d]⟩ : Shape).Reduces [1] ⟨1, ![n]⟩)
    (hu : 0 < (⟨0, ![]⟩ : Shape).numel)
    (h0 : (⟨0, ![]⟩ : Shape).BroadcastsInDim ⟨1, ![n]⟩ ![])
    (h1 : (⟨1, ![n]⟩ : Shape).BroadcastsInDim ⟨2, ![n, 1]⟩ ![0])
    (h2 : (⟨2, ![n, 1]⟩ : Shape).BroadcastsInDim ⟨2, ![n, d]⟩ ![0, 1]) :
    subf z (broadcastInDim ⟨2, ![n, d]⟩ ![0, 1] h2 (broadcastInDim ⟨2, ![n, 1]⟩ ![0] h1
        (maximumf (broadcastInDim ⟨1, ![n]⟩ ![] h0 (constant (F := Ideal) ⟨0, ![]⟩ .f32 0xFF800000#32))
          (Host.reduce (FloatOps.maximumf (F := Ideal) (φ := .f32)) z (constant (F := Ideal) ⟨0, ![]⟩ .f32 0xFF800000#32) hr' hu))))
      = shift z := by
  funext i
  obtain ⟨p, o, rfl⟩ : ∃ (p : Fin n) (o : Fin d), i = ix2 p o := ⟨i 0, i 1, eq_ix2 i⟩
  show z (ix2 p o) - broadcastInDim ⟨2, ![n, d]⟩ ![0, 1] h2 (broadcastInDim ⟨2, ![n, 1]⟩ ![0] h1
        (maximumf (broadcastInDim ⟨1, ![n]⟩ ![] h0 (constant (F := Ideal) ⟨0, ![]⟩ .f32 0xFF800000#32))
          (Host.reduce (FloatOps.maximumf (F := Ideal) (φ := .f32)) z (constant (F := Ideal) ⟨0, ![]⟩ .f32 0xFF800000#32) hr' hu))) (ix2 p o)
    = z (ix2 p o) - rowMax z p
  rw [Cert.LibBroadcastInDim.col_mat_apply h2 _ p o, Cert.LibBroadcastInDim.vec_col_apply h1 _ p 0]
  show z (ix2 p o) - max (broadcastInDim ⟨1, ![n]⟩ ![] h0 (constant (F := Ideal) ⟨0, ![]⟩ .f32 0xFF800000#32) (ix1 p))
      (Host.reduce (FloatOps.maximumf (F := Ideal) (φ := .f32)) z (constant (F := Ideal) ⟨0, ![]⟩ .f32 0xFF800000#32) hr' hu (ix1 p))
    = z (ix2 p o) - rowMax z p
  rw [Cert.LibBroadcastInDim.scalar_apply ![] h0 _ (ix1 p), Cert.LibRowReduce.hostReduce_max_row z _ hr' hr hu p]
  exact congrArg (z (ix2 p o) - ·) (max_start_fold _ _ _)

/-- The exponentials summed along the rows from the zero word, placed as a column, the logarithm taken, spread over the row. -/
theorem host_logSumExp {n d : ℕ} (s : FVec Ideal ⟨2, ![n, d]⟩ .f32)
    (hr' : (⟨2, ![n, d]⟩ : Shape).ReducesTo [1] ⟨1, ![n]⟩) (hr : (⟨2, ![n, d]⟩ : Shape).Reduces [1] ⟨1, ![n]⟩)
    (hu : 0 < (⟨0, ![]⟩ : Shape).numel)
    (h1 : (⟨1, ![n]⟩ : Shape).BroadcastsInDim ⟨2, ![n, 1]⟩ ![0])
    (h2 : (⟨2, ![n, 1]⟩ : Shape).BroadcastsInDim ⟨2, ![n, d]⟩ ![0, 1]) :
    broadcastInDim ⟨2, ![n, d]⟩ ![0, 1] h2 (Host.log (broadcastInDim ⟨2, ![n, 1]⟩ ![0] h1
        (Host.reduceAdd (Host.exp s) (constant (F := Ideal) ⟨0, ![]⟩ .f32 0x00000000#32) hr' hu)))
      = fun i => logSumExp s (i 0) := by
  funext i
  obtain ⟨p, o, rfl⟩ : ∃ (p : Fin n) (o : Fin d), i = ix2 p o := ⟨i 0, i 1, eq_ix2 i⟩
  rw [Cert.LibBroadcastInDim.col_mat_apply h2 _ p o]
  show Ideal.log (broadcastInDim ⟨2, ![n, 1]⟩ ![0] h1
        (Host.reduceAdd (Host.exp s) (constant (F := Ideal) ⟨0, ![]⟩ .f32 0x00000000#32) hr' hu) (ix2 p (0 : Fin 1)))
    = logSumExp s p
  rw [Cert.LibBroadcastInDim.vec_col_apply h1 _ p 0, Cert.LibRowReduce.hostReduceAdd_row (Host.exp s) _ hr' hr hu p]
  show Ideal.log (Ideal.ofBits .f32 0x00000000#32 + ∑ o : Fin d, Ideal.exp (s (ix2 p o))) = logSumExp s p
  rw [Ideal.ofBits_zero_f32, zero_add]
  rfl

/-- The host's logarithm of the softmax along the rows. -/
theorem host_eq_logSoftmax {n d : ℕ} (z : FVec Ideal ⟨2, ![n, d]⟩ .f32)
    (hr' : (⟨2, ![n, d]⟩ : Shape).ReducesTo [1] ⟨1, ![n]⟩) (hr : (⟨2, ![n, d]⟩ : Shape).Reduces [1] ⟨1, ![n]⟩)
    (hu : 0 < (⟨0, ![]⟩ : Shape).numel)
    (h0 : (⟨0, ![]⟩ : Shape).BroadcastsInDim ⟨1, ![n]⟩ ![])
    (h1 : (⟨1, ![n]⟩ : Shape).BroadcastsInDim ⟨2, ![n, 1]⟩ ![0])
    (h2 : (⟨2, ![n, 1]⟩ : Shape).BroadcastsInDim ⟨2, ![n, d]⟩ ![0, 1]) :
    subf (subf z (broadcastInDim ⟨2, ![n, d]⟩ ![0, 1] h2 (broadcastInDim ⟨2, ![n, 1]⟩ ![0] h1
          (maximumf (broadcastInDim ⟨1, ![n]⟩ ![] h0 (constant (F := Ideal) ⟨0, ![]⟩ .f32 0xFF800000#32))
            (Host.reduce (FloatOps.maximumf (F := Ideal) (φ := .f32)) z (constant (F := Ideal) ⟨0, ![]⟩ .f32 0xFF800000#32) hr' hu)))))
      (broadcastInDim ⟨2, ![n, d]⟩ ![0, 1] h2 (Host.log (broadcastInDim ⟨2, ![n, 1]⟩ ![0] h1
          (Host.reduceAdd (Host.exp (subf z (broadcastInDim ⟨2, ![n, d]⟩ ![0, 1] h2 (broadcastInDim ⟨2, ![n, 1]⟩ ![0] h1
            (maximumf (broadcastInDim ⟨1, ![n]⟩ ![] h0 (constant (F := Ideal) ⟨0, ![]⟩ .f32 0xFF800000#32))
              (Host.reduce (FloatOps.maximumf (F := Ideal) (φ := .f32)) z (constant (F := Ideal) ⟨0, ![]⟩ .f32 0xFF800000#32) hr' hu))))))
            (constant (F := Ideal) ⟨0, ![]⟩ .f32 0x00000000#32) hr' hu))))
      = logSoftmax z := by
  rw [host_shift z hr' hr hu h0 h1 h2, host_logSumExp (shift z) hr' hr hu h1 h2]
  rfl

end Cert.LibLogSoftmaxRows

end
-- ==== Proof.Stage3.lean ====
/-
  Pipeline 3 of the kernel, read as a function of whole arrays: the bias row added to each block of 2000 aggregated rows, then the logarithm of the softmax of each row.

  A grid point t works on rows 2000 t … 2000 t + 1999: its first window's block is those rows of the first array, its
  second window's block is the whole second array at every point, and it writes back the same rows of the result.  The
  stage is row-local (row r of the stage of a block is row 2000 t + r of the stage of the whole array), so what point t
  writes back is block t of ONE function of the two arrays; the fifty blocks tile the 100000 rows, so the result array
  ends holding that function.  All of it is stated for ANY contents V the pipeline is entered with.
-/
import proofs.«156674_j5961414607058_1_alg».proof.Proof.Gen.KernelIdeal.Frame
import Idealize.ShloMosaic.Lib.Pipeline.Value
import Idealize.ShloMosaic.Lib.ValueIdx
import proofs.«156674_j5961414607058_1_alg».proof.Proof.LibRowStages
import proofs.«156674_j5961414607058_1_alg».proof.Proof.LibLogSoftmaxRows

noncomputable section

namespace Cert.KernelIdeal.Stage3

open Cert.KernelIdeal Cert.KernelIdeal.Gen Idealize.ShloMosaic Idealize.ShloMosaic.TcCoe Idealize.SL.Sem
open Idealize.ShloMosaic.Pipeline (Dat)
open Idealize.ShloMosaic.ValueIdx Cert.LibRowStages Cert.LibLogSoftmaxRows

variable (V : (c : Dev nD) → (b : Ref sig .tc) → Buf (Elt Ideal) ((c : Thread nD τ).loc b))

theorem hz : (![0, 0] : Fin 2 → Nat) = fun _ => 0 := funext fun a => by fin_cases a <;> rfl

/-- The body on a block: the bias row added to each block of 2000 aggregated rows, then the logarithm of the softmax of each row. -/
theorem body_eq (x0 : Vec Ideal S2000x64 .f32) (x1 : Vec Ideal S1x64 .f32) :
    out3_2 x0 x1 = logSoftmax (addRow x0 x1) := by
  unfold out3_2
  rw [View.canon_unit_zero hz]
  simp only [View.ld_unit_zero (S := S2000x64) hz, View.ld_unit_zero (S := S1x64) hz]
  unfold k3_pay1
  simp only [shapeCast_self]
  rw [addf_spread_eq_addRow broadcasts_S1x64_S2000x64 x0 x1]
  exact unit_eq_logSoftmax (addRow x0 x1) reduces_S2000x64_S2000 (.inl rfl) rfl rfl shapeCasts_S2000_S2000x1 broadcasts_S2000x1_S2000x64

/-- The printed index maps over the fifty points: the first and the third window move down the rows with the point, the
    second stays on the whole array. -/
theorem idx : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 ∧ t.val < 50 :=
  (by decide +kernel : ∀ t : Fin grid3.N, _)

/-- Row r of the first window's block at point t is row 2000 t + r of its array. -/
theorem iblk_rows (c : Dev nD) (t : Fin cfg3.N) (r : Fin 2000) (k : Fin 64) (R : Fin 100000)
    (hR : R.val = 2000 * t.val + r.val) :
    (iblk3 V c 0 t : Vec Ideal S2000x64 .f32) (ix2 r k) = (V c main_v56 : Mat 100000 64) (ix2 R k) := by
  obtain ⟨e0, e1, -⟩ := idx t
  unfold iblk3
  rw [View.read_apply]
  show V c main_v56 _ = V c main_v56 _
  refine congrArg _ (funext fun a => Fin.ext ?_)
  match a with
  | ⟨0, _⟩ => show win3_0.index t (0 : Fin 2) * 2000 + 1 * r.val = R.val; rw [e0, hR]; omega
  | ⟨1, _⟩ => show win3_0.index t (1 : Fin 2) * 64 + 1 * k.val = k.val; rw [e1]; omega

/-- The second window's block is its whole array at every point. -/
theorem iblk_whole (c : Dev nD) (t : Fin cfg3.N) :
    (iblk3 V c 1 t : Vec Ideal S1x64 .f32) = (V c main_v57 : Mat 1 64) := by
  obtain ⟨-, -, e2, e3, -⟩ := idx t
  refine funext fun (j : S1x64.Idx) => ?_
  unfold iblk3
  rw [View.read_apply]
  show V c main_v57 _ = V c main_v57 j
  refine congrArg _ (funext fun a => Fin.ext ?_)
  match a with
  | ⟨0, _⟩ => show win3_1.index t (0 : Fin 2) * 1 + 1 * (j 0).val = (j 0).val; rw [e2]; omega
  | ⟨1, _⟩ => show win3_1.index t (1 : Fin 2) * 64 + 1 * (j 1).val = (j 1).val; rw [e3]; omega

/-- What point t writes back is block t of the stage of the whole arrays. -/
theorem flushed_eq (c : Dev nD) (t : Fin cfg3.N) :
    (dat3 V c).flushed 2 t = ((cfg3.win 2).blk t).view.read (Elt Ideal) (logSoftmax (addRow (V c main_v56 : Mat 100000 64) (V c main_v57 : Mat 1 64))) := by
  show (cfg3.win 2).cut (grid3.coords t) ((dat3 V c).after 2 t) = _
  rw [after3_2]
  obtain ⟨-, -, -, -, e4, e5, ht⟩ := idx t
  refine funext fun (j : S2000x64.Idx) => ?_
  obtain ⟨r, o, rfl⟩ : ∃ (r : Fin 2000) (o : Fin 64), j = ix2 r o := ⟨j 0, j 1, eq_ix2 j⟩
  rw [View.read_apply]
  have hemb : ((cfg3.win 2).blk t).view.emb (ix2 r o)
      = (ix2 (⟨2000 * t.val + r.val, by omega⟩ : Fin 100000) o : S100000x64.Idx) :=
    funext fun a => Fin.ext (by
      match a with
      | ⟨0, _⟩ => show win3_2.index t (0 : Fin 2) * 2000 + 1 * r.val = 2000 * t.val + r.val; rw [e4]; omega
      | ⟨1, _⟩ => show win3_2.index t (1 : Fin 2) * 64 + 1 * o.val = o.val; rw [e5]; omega)
  rw [hemb]
  refine (congrFun (body_eq (iblk3 V c 0 t) (iblk3 V c 1 t)) (ix2 r o)).trans ?_
  rw [iblk_whole V c t]
  exact logSoftmax_row (addRow_row (fun k => iblk_rows V c t r k _ rfl) _) o

/-- An index of the result array lies in point t's block iff each coordinate lies in the block's range on its axis. -/
theorem mem_blk (t : Fin cfg3.N) (i : S100000x64.Idx) :
    i ∈ ((cfg3.win 2).blk t).view.set ↔ ∀ a : Fin 2, win3_2.index t a * S2000x64.size a ≤ (i a).val
      ∧ (i a).val < win3_2.index t a * S2000x64.size a + S2000x64.size a := by
  show i ∈ ((View.whole main_v58).slice (win3_2.rect t)).set ↔ _
  rw [View.set_slice_whole, Rect.mem_set_unit]
  exact Iff.rfl

/-- The point whose block holds row n. -/
def pointOf (n : Fin 100000) : Fin cfg3.N := ⟨n.val / 2000, by have hN : cfg3.N = 50 := N_3; rw [hN]; omega⟩

/-- Every index of the result array lies in some point's block: row n in the block of point n / 2000. -/
theorem cover (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  obtain ⟨-, -, -, -, e4, e5, -⟩ := idx (pointOf ⟨(i 0).val, hi0⟩)
  have e4' : win3_2.index (pointOf ⟨(i 0).val, hi0⟩) (0 : Fin 2) = (i 0).val / 2000 := e4
  refine ⟨pointOf ⟨(i 0).val, hi0⟩, flush3_2 _, ?_⟩
  rw [mem_blk]
  intro a
  match a with
  | ⟨0, _⟩ =>
    show win3_2.index (pointOf ⟨(i 0).val, hi0⟩) (0 : Fin 2) * 2000 ≤ (i 0).val
      ∧ (i 0).val < win3_2.index (pointOf ⟨(i 0).val, hi0⟩) (0 : Fin 2) * 2000 + 2000
    rw [e4']; omega
  | ⟨1, _⟩ =>
    show win3_2.index (pointOf ⟨(i 0).val, hi0⟩) (1 : Fin 2) * 64 ≤ (i 1).val
      ∧ (i 1).val < win3_2.index (pointOf ⟨(i 0).val, hi0⟩) (1 : Fin 2) * 64 + 64
    rw [e5]; omega

/-- The result array after the pipeline: the stage of the two arrays it was entered with. -/
theorem final (c : Dev nD) : (dat3 V c).arrAt 2 cfg3.N = logSoftmax (addRow (V c main_v56 : Mat 100000 64) (V c main_v57 : Mat 1 64)) :=
  (dat3 V c).arrAt_eq_of_cover 2 _ (fun t _ => flushed_eq V c t) cover

end Cert.KernelIdeal.Stage3

end
-- ==== Proof.RefBridge.lean ====
/-
  The reference's dense and row-wise stages as functions on matrices of extended reals.

  Between its two aggregations the reference applies, to whole [100000, ·] matrices, the stages the kernel applies block
  by block: a contraction of the rows of a matrix against the columns of a weight matrix is the matrix product; a bias
  vector placed as a row, spread over the rows and added, then the maximum against a splat of the zero word, is the
  bias row added and the floor at zero; the same bias spelling followed by the row maximum, the shift, the exponentials'
  row sum, its logarithm and the second shift is the logarithm of the softmax of each row of the biased matrix.  The
  aggregations themselves (the gathers and accumulating scatters over the edge list) are not opened: they stay the
  program's own stages, applied to these.
-/
import proofs.«156674_j5961414607058_1_alg».proof.Proof.RefStagesP
import proofs.«156674_j5961414607058_1_alg».proof.Proof.LibRowStages
import proofs.«156674_j5961414607058_1_alg».proof.Proof.LibLogSoftmaxRows

noncomputable section

namespace Cert.ReferenceIdeal.Bridge

open Cert.ReferenceIdeal Cert.ReferenceIdeal.Gen Cert.ReferenceIdeal.ReadP Idealize.ShloMosaic Idealize.ShloMosaic.ValueIdx
open Cert.LibRowStages Cert.LibLogSoftmaxRows

/-- The first dense layer: the features times the first weight matrix. -/
theorem v4_eq (x0 : (⟨S100000x128, .f32⟩ : BufTy).Contents (Elt Ideal)) (x2 : (⟨S128x128, .f32⟩ : BufTy).Contents (Elt Ideal)) :
    val_main_v4 (F := Ideal) x0 x2 = mm (x0 : Mat 100000 128) (x2 : Mat 128 128) := by
  unfold val_main_v4
  exact dotGeneral_eq_mm dot_S100000x128_S128x128_S100000x128_1_0_0_1_n_n rfl rfl rfl rfl rfl rfl none x0 x2

/-- The first layer's epilogue: the bias row added to the aggregated matrix, floored at zero. -/
theorem v44_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (hc : (⟨1, ![128]⟩ : Shape).ShapeCasts ⟨2, ![1, 128]⟩) :
    val_main_v44 (F := Ideal) x0 x1 x2 x3
      = relu (addRow (val_main_v40 (F := Ideal) x0 x1 x2 : Mat 100000 128) (shapeCast ⟨2, ![1, 128]⟩ x3 hc)) := by
  unfold val_main_v44 val_main_v43 val_main_call0_v0 val_main_call0_cst val_main_v42 val_main_v41
  exact (congrArg (fun a => maximumf a (broadcastInDim S100000x128 ![] bcast_S_S100000x128 (constant (F := Ideal) S_ .f32 0x00000000#32)))
      (addf_hostBias_eq_addRow bcast_S128_S1x128_1 bcast_S1x128_S100000x128_0_1 hc (val_main_v40 (F := Ideal) x0 x1 x2) x3)).trans
    (maximumf_hostZero_eq_relu bcast_S_S100000x128 _)

/-- The second dense layer: the hidden matrix times the second weight matrix. -/
theorem v45_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) :
    val_main_v45 (F := Ideal) x0 x1 x2 x3 x4 = mm (val_main_v44 (F := Ideal) x0 x1 x2 x3 : Mat 100000 128) (x4 : Mat 128 64) := by
  unfold val_main_v45
  exact dotGeneral_eq_mm dot_S100000x128_S128x64_S100000x64_1_0_0_1_n_n rfl rfl rfl rfl rfl rfl none _ x4

/-- The second layer's biased matrix: the bias row added to the second aggregated matrix. -/
theorem v84_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (hc : (⟨1, ![64]⟩ : Shape).ShapeCasts ⟨2, ![1, 64]⟩) :
    val_main_v84 (F := Ideal) x0 x1 x2 x3 x4 x5
      = addRow (val_main_v81 (F := Ideal) x0 x1 x2 x3 x4 : Mat 100000 64) (shapeCast ⟨2, ![1, 64]⟩ x5 hc) := by
  unfold val_main_v84 val_main_v83 val_main_v82
  exact addf_hostBias_eq_addRow bcast_S64_S1x64_1 bcast_S1x64_S100000x64_0_1 hc (val_main_v81 (F := Ideal) x0 x1 x2 x3 x4) x5

/-- The result: the logarithm of the softmax of each row of the biased matrix. -/
theorem v85_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (hc : (⟨1, ![64]⟩ : Shape).ShapeCasts ⟨2, ![1, 64]⟩) :
    val_main_v85 (F := Ideal) x0 x1 x2 x3 x4 x5
      = logSoftmax (addRow (val_main_v81 (F := Ideal) x0 x1 x2 x3 x4 : Mat 100000 64) (shapeCast ⟨2, ![1, 64]⟩ x5 hc)) := by
  unfold val_main_v85 val_main_call1_v10 val_main_call1_v9 val_main_call1_v8 val_main_call1_v7 val_main_call1_cst_1 val_main_call1_v6
    val_main_call1_v5 val_main_call1_v4 val_main_call1_v3 val_main_call1_v2 val_main_call1_v1 val_main_call1_cst_0 val_main_call1_v0
    val_main_call1_cst
  rw [v84_eq x0 x1 x2 x3 x4 x5 hc]
  exact host_eq_logSoftmax _ reducesTo_S100000x64_S100000_d1 (by decide) h_S_ bcast_S_S100000 bcast_S100000_S100000x1_0
    bcast_S100000x1_S100000x64_0_1

end Cert.ReferenceIdeal.Bridge

end
-- ==== Proof.KernelFold.lean ====
/-
  The kernel's result buffer as a function of the launch arguments.

  The run leaves every buffer at the contents the seven segments fold to.  Walking that fold back from the result
  buffer: the last pipeline's output array is the logarithm of the softmax of each row of its biased input; its input is
  what the second aggregation's host operations leave, applied to the second dense pipeline's output; that is the hidden
  matrix times the second weight matrix; the hidden matrix is the bias-and-floor pipeline's output on what the first
  aggregation leaves, applied to the first dense pipeline's output, the features times the first weight matrix.  The edge
  vectors and normalisation weights are computed once, before the first pipeline, and no later segment writes them; no
  segment writes an argument.  The aggregations are the same host operations, on the same operands, as the reference's:
  they are carried as the reference's own stages and never opened.  So the result buffer holds the reference's last stage
  of the launch arguments.
-/
import proofs.«156674_j5961414607058_1_alg».proof.Proof.Gen.KernelIdeal.Frame
import Idealize.ShloMosaic.Lib.StableHlo.Run
import proofs.«156674_j5961414607058_1_alg».proof.Proof.KernelRun
import proofs.«156674_j5961414607058_1_alg».proof.Proof.Stage0
import proofs.«156674_j5961414607058_1_alg».proof.Proof.Stage1
import proofs.«156674_j5961414607058_1_alg».proof.Proof.Stage2
import proofs.«156674_j5961414607058_1_alg».proof.Proof.Stage3
import proofs.«156674_j5961414607058_1_alg».proof.Proof.RefStagesP
import proofs.«156674_j5961414607058_1_alg».proof.Proof.RefBridge

set_option maxRecDepth 16384

noncomputable section

namespace Cert.KernelIdeal.Fold

open Cert.KernelIdeal Cert.KernelIdeal.Gen Idealize.ShloMosaic Idealize.ShloMosaic.TcCoe Idealize.SL.Sem
open Idealize.ShloMosaic.StableHlo
open Cert.LibRowStages Cert.LibLogSoftmaxRows

variable (m : (ℓ : Loc nD τ sig) → Buf (Elt Ideal) ℓ) (ρ : Dev nD → PrngReg) (c : Dev nD)

/-- A buffer that none of a stretch's host operations writes keeps its contents: every operation writes its one result
    buffer, and that is another buffer. -/
macro "not_written" : tactic => `(tactic| (
  refine StableHlo.after_of_forall_not_mem _ _ (List.forall_iff_forall_mem.mp ?_)
  simp only [hostOps0, hostOps1, hostOps3, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## What the host stretches leave alone -/

theorem keep0_arg0 (V : Valuation τ sig (Elt Ideal)) : after hostOps0 V (Proc.devRef .tc main_arg0) = V (Proc.devRef .tc main_arg0) := by not_written
theorem keep0_arg2 (V : Valuation τ sig (Elt Ideal)) : after hostOps0 V (Proc.devRef .tc main_arg2) = V (Proc.devRef .tc main_arg2) := by not_written
theorem keep0_arg3 (V : Valuation τ sig (Elt Ideal)) : after hostOps0 V (Proc.devRef .tc main_arg3) = V (Proc.devRef .tc main_arg3) := by not_written
theorem keep0_arg4 (V : Valuation τ sig (Elt Ideal)) : after hostOps0 V (Proc.devRef .tc main_arg4) = V (Proc.devRef .tc main_arg4) := by not_written
theorem keep0_arg5 (V : Valuation τ sig (Elt Ideal)) : after hostOps0 V (Proc.devRef .tc main_arg5) = V (Proc.devRef .tc main_arg5) := by not_written
theorem keep1_main_v5 (V : Valuation τ sig (Elt Ideal)) : after hostOps1 V (Proc.devRef .tc main_v5) = V (Proc.devRef .tc main_v5) := by not_written
theorem keep1_main_v6 (V : Valuation τ sig (Elt Ideal)) : after hostOps1 V (Proc.devRef .tc main_v6) = V (Proc.devRef .tc main_v6) := by not_written
theorem keep1_main_v26 (V : Valuation τ sig (Elt Ideal)) : after hostOps1 V (Proc.devRef .tc main_v26) = V (Proc.devRef .tc main_v26) := by not_written
theorem keep1_main_arg4 (V : Valuation τ sig (Elt Ideal)) : after hostOps1 V (Proc.devRef .tc main_arg4) = V (Proc.devRef .tc main_arg4) := by not_written
theorem keep1_main_arg5 (V : Valuation τ sig (Elt Ideal)) : after hostOps1 V (Proc.devRef .tc main_arg5) = V (Proc.devRef .tc main_arg5) := by not_written

/-! ## Before the first pipeline: the arguments, the edge vectors, the normalisation weights -/

theorem W1_arg0 : W1 m ρ c (Proc.devRef .tc main_arg0) = (m ((c : Thread nD τ).loc main_arg0)) := (keep0_arg0 (W0 m ρ c)).trans rfl
theorem W1_arg2 : W1 m ρ c (Proc.devRef .tc main_arg2) = (m ((c : Thread nD τ).loc main_arg2)) := (keep0_arg2 (W0 m ρ c)).trans rfl
theorem W1_arg3 : W1 m ρ c (Proc.devRef .tc main_arg3) = (m ((c : Thread nD τ).loc main_arg3)) := (keep0_arg3 (W0 m ρ c)).trans rfl
theorem W1_arg4 : W1 m ρ c (Proc.devRef .tc main_arg4) = (m ((c : Thread nD τ).loc main_arg4)) := (keep0_arg4 (W0 m ρ c)).trans rfl
theorem W1_arg5 : W1 m ρ c (Proc.devRef .tc main_arg5) = (m ((c : Thread nD τ).loc main_arg5)) := (keep0_arg5 (W0 m ρ c)).trans rfl

/-- The source nodes with the self-loops appended. -/
theorem W1_v5 : W1 m ρ c (Proc.devRef .tc main_v5) = Cert.ReferenceIdeal.ReadP.val_main_v6 (F := Ideal) (m ((c : Thread nD τ).loc main_arg1)) := by
  show after hostOps0 (W0 m ρ c) (Proc.devRef .tc main_v5) = _
  simp only [hostOps0]
  after_results_simp
  rfl

/-- The destination nodes with the self-loops appended. -/
theorem W1_v6 : W1 m ρ c (Proc.devRef .tc main_v6) = Cert.ReferenceIdeal.ReadP.val_main_v7 (F := Ideal) (m ((c : Thread nD τ).loc main_arg1)) := by
  show after hostOps0 (W0 m ρ c) (Proc.devRef .tc main_v6) = _
  simp only [hostOps0]
  after_results_simp
  rfl

/-- The normalisation weight of each edge. -/
theorem W1_v26 : W1 m ρ c (Proc.devRef .tc main_v26) = Cert.ReferenceIdeal.ReadP.val_main_v27 (F := Ideal) (m ((c : Thread nD τ).loc main_arg1)) := by
  show after hostOps0 (W0 m ρ c) (Proc.devRef .tc main_v26) = _
  simp only [hostOps0]
  after_results_simp
  rfl

/-! ## The first dense pipeline and the first aggregation -/

theorem W2_v5 : W2 m ρ c (Proc.devRef .tc main_v5) = Cert.ReferenceIdeal.ReadP.val_main_v6 (F := Ideal) (m ((c : Thread nD τ).loc main_arg1)) :=
  (W2_of_ne m ρ c main_v5 (by decide)).trans (W1_v5 m ρ c)
theorem W2_v6 : W2 m ρ c (Proc.devRef .tc main_v6) = Cert.ReferenceIdeal.ReadP.val_main_v7 (F := Ideal) (m ((c : Thread nD τ).loc main_arg1)) :=
  (W2_of_ne m ρ c main_v6 (by decide)).trans (W1_v6 m ρ c)
theorem W2_v26 : W2 m ρ c (Proc.devRef .tc main_v26) = Cert.ReferenceIdeal.ReadP.val_main_v27 (F := Ideal) (m ((c : Thread nD τ).loc main_arg1)) :=
  (W2_of_ne m ρ c main_v26 (by decide)).trans (W1_v26 m ρ c)
theorem W2_arg3 : W2 m ρ c (Proc.devRef .tc main_arg3) = (m ((c : Thread nD τ).loc main_arg3)) := (W2_of_ne m ρ c main_arg3 (by decide)).trans (W1_arg3 m ρ c)
theorem W2_arg4 : W2 m ρ c (Proc.devRef .tc main_arg4) = (m ((c : Thread nD τ).loc main_arg4)) := (W2_of_ne m ρ c main_arg4 (by decide)).trans (W1_arg4 m ρ c)
theorem W2_arg5 : W2 m ρ c (Proc.devRef .tc main_arg5) = (m ((c : Thread nD τ).loc main_arg5)) := (W2_of_ne m ρ c main_arg5 (by decide)).trans (W1_arg5 m ρ c)

/-- The first pipeline's output: the features times the first weight matrix. -/
theorem W2_v27 : W2 m ρ c (Proc.devRef .tc main_v27) = Cert.ReferenceIdeal.ReadP.val_main_v4 (F := Ideal) (m ((c : Thread nD τ).loc main_arg0)) (m ((c : Thread nD τ).loc main_arg2)) := by
  refine (W2_arr m ρ c 2).trans ((Cert.KernelIdeal.Stage0.final (V1 m ρ) c).trans ?_)
  show mm (W1 m ρ c (Proc.devRef .tc main_arg0) : Mat 100000 128) (W1 m ρ c (Proc.devRef .tc main_arg2) : Mat 128 128) = _
  rw [W1_arg0 m ρ c, W1_arg2 m ρ c]
  exact (Cert.ReferenceIdeal.Bridge.v4_eq _ _).symm

/-- The first aggregation of it over the edges. -/
theorem W3_v40 : W3 m ρ c (Proc.devRef .tc main_v40) = Cert.ReferenceIdeal.ReadP.val_main_v40 (F := Ideal) (m ((c : Thread nD τ).loc main_arg0)) (m ((c : Thread nD τ).loc main_arg1)) (m ((c : Thread nD τ).loc main_arg2)) := by
  show after hostOps1 (W2 m ρ c) (Proc.devRef .tc main_v40) = _
  simp only [hostOps1]
  after_results_simp
  simp only [W2_v27 m ρ c, W2_v5 m ρ c, W2_v6 m ρ c, W2_v26 m ρ c]
  rfl

/-- The first bias vector as a one-row matrix. -/
theorem W3_v41 : W3 m ρ c (Proc.devRef .tc main_v41) = shapeCast S1x128 (m ((c : Thread nD τ).loc main_arg3)) shapeCasts_S128_S1x128 := by
  show after hostOps1 (W2 m ρ c) (Proc.devRef .tc main_v41) = _
  simp only [hostOps1]
  after_results_simp
  simp only [W2_arg3 m ρ c]
  rfl

theorem W3_v5 : W3 m ρ c (Proc.devRef .tc main_v5) = Cert.ReferenceIdeal.ReadP.val_main_v6 (F := Ideal) (m ((c : Thread nD τ).loc main_arg1)) :=
  (keep1_main_v5 (W2 m ρ c)).trans (W2_v5 m ρ c)
theorem W3_v6 : W3 m ρ c (Proc.devRef .tc main_v6) = Cert.ReferenceIdeal.ReadP.val_main_v7 (F := Ideal) (m ((c : Thread nD τ).loc main_arg1)) :=
  (keep1_main_v6 (W2 m ρ c)).trans (W2_v6 m ρ c)
theorem W3_v26 : W3 m ρ c (Proc.devRef .tc main_v26) = Cert.ReferenceIdeal.ReadP.val_main_v27 (F := Ideal) (m ((c : Thread nD τ).loc main_arg1)) :=
  (keep1_main_v26 (W2 m ρ c)).trans (W2_v26 m ρ c)
theorem W3_arg4 : W3 m ρ c (Proc.devRef .tc main_arg4) = (m ((c : Thread nD τ).loc main_arg4)) := (keep1_main_arg4 (W2 m ρ c)).trans (W2_arg4 m ρ c)
theorem W3_arg5 : W3 m ρ c (Proc.devRef .tc main_arg5) = (m ((c : Thread nD τ).loc main_arg5)) := (keep1_main_arg5 (W2 m ρ c)).trans (W2_arg5 m ρ c)

/-! ## The bias-and-floor pipeline and the second dense pipeline -/

/-- The hidden matrix. -/
theorem W4_v42 : W4 m ρ c (Proc.devRef .tc main_v42) = Cert.ReferenceIdeal.ReadP.val_main_v44 (F := Ideal) (m ((c : Thread nD τ).loc main_arg0)) (m ((c : Thread nD τ).loc main_arg1)) (m ((c : Thread nD τ).loc main_arg2)) (m ((c : Thread nD τ).loc main_arg3)) := by
  refine (W4_arr m ρ c 2).trans ((Cert.KernelIdeal.Stage1.final (V3 m ρ) c).trans ?_)
  show relu (addRow (W3 m ρ c (Proc.devRef .tc main_v40) : Mat 100000 128) (W3 m ρ c (Proc.devRef .tc main_v41) : Mat 1 128)) = _
  rw [W3_v40 m ρ c, W3_v41 m ρ c]
  exact (Cert.ReferenceIdeal.Bridge.v44_eq _ _ _ _ shapeCasts_S128_S1x128).symm

theorem W4_v5 : W4 m ρ c (Proc.devRef .tc main_v5) = Cert.ReferenceIdeal.ReadP.val_main_v6 (F := Ideal) (m ((c : Thread nD τ).loc main_arg1)) :=
  (W4_of_ne m ρ c main_v5 (by decide)).trans (W3_v5 m ρ c)
theorem W4_v6 : W4 m ρ c (Proc.devRef .tc main_v6) = Cert.ReferenceIdeal.ReadP.val_main_v7 (F := Ideal) (m ((c : Thread nD τ).loc main_arg1)) :=
  (W4_of_ne m ρ c main_v6 (by decide)).trans (W3_v6 m ρ c)
theorem W4_v26 : W4 m ρ c (Proc.devRef .tc main_v26) = Cert.ReferenceIdeal.ReadP.val_main_v27 (F := Ideal) (m ((c : Thread nD τ).loc main_arg1)) :=
  (W4_of_ne m ρ c main_v26 (by decide)).trans (W3_v26 m ρ c)
theorem W4_arg4 : W4 m ρ c (Proc.devRef .tc main_arg4) = (m ((c : Thread nD τ).loc main_arg4)) := (W4_of_ne m ρ c main_arg4 (by decide)).trans (W3_arg4 m ρ c)
theorem W4_arg5 : W4 m ρ c (Proc.devRef .tc main_arg5) = (m ((c : Thread nD τ).loc main_arg5)) := (W4_of_ne m ρ c main_arg5 (by decide)).trans (W3_arg5 m ρ c)

/-- The hidden matrix times the second weight matrix. -/
theorem W5_v43 : W5 m ρ c (Proc.devRef .tc main_v43) = Cert.ReferenceIdeal.ReadP.val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W5_arr m ρ c 2).trans ((Cert.KernelIdeal.Stage2.final (V4 m ρ) c).trans ?_)
  show mm (W4 m ρ c (Proc.devRef .tc main_v42) : Mat 100000 128) (W4 m ρ c (Proc.devRef .tc main_arg4) : Mat 128 64) = _
  rw [W4_v42 m ρ c, W4_arg4 m ρ c]
  exact (Cert.ReferenceIdeal.Bridge.v45_eq _ _ _ _ _).symm

theorem W5_v5 : W5 m ρ c (Proc.devRef .tc main_v5) = Cert.ReferenceIdeal.ReadP.val_main_v6 (F := Ideal) (m ((c : Thread nD τ).loc main_arg1)) :=
  (W5_of_ne m ρ c main_v5 (by decide)).trans (W4_v5 m ρ c)
theorem W5_v6 : W5 m ρ c (Proc.devRef .tc main_v6) = Cert.ReferenceIdeal.ReadP.val_main_v7 (F := Ideal) (m ((c : Thread nD τ).loc main_arg1)) :=
  (W5_of_ne m ρ c main_v6 (by decide)).trans (W4_v6 m ρ c)
theorem W5_v26 : W5 m ρ c (Proc.devRef .tc main_v26) = Cert.ReferenceIdeal.ReadP.val_main_v27 (F := Ideal) (m ((c : Thread nD τ).loc main_arg1)) :=
  (W5_of_ne m ρ c main_v26 (by decide)).trans (W4_v26 m ρ c)
theorem W5_arg5 : W5 m ρ c (Proc.devRef .tc main_arg5) = (m ((c : Thread nD τ).loc main_arg5)) := (W5_of_ne m ρ c main_arg5 (by decide)).trans (W4_arg5 m ρ c)

/-! ## The second aggregation and the last pipeline -/

/-- The second aggregation over the edges.  The reference computes the edge vectors and weights a second time; as
    functions of the edge list they are the first ones. -/
theorem W6_v56 : W6 m ρ c (Proc.devRef .tc main_v56) = Cert.ReferenceIdeal.ReadP.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show after hostOps3 (W5 m ρ c) (Proc.devRef .tc main_v56) = _
  simp only [hostOps3]
  after_results_simp
  simp only [W5_v43 m ρ c, W5_v5 m ρ c, W5_v6 m ρ c, W5_v26 m ρ c]
  rfl

/-- The second bias vector as a one-row matrix. -/
theorem W6_v57 : W6 m ρ c (Proc.devRef .tc main_v57) = shapeCast S1x64 (m ((c : Thread nD τ).loc main_arg5)) shapeCasts_S64_S1x64 := by
  show after hostOps3 (W5 m ρ c) (Proc.devRef .tc main_v57) = _
  simp only [hostOps3]
  after_results_simp
  simp only [W5_arg5 m ρ c]
  rfl

/-- The result buffer: the reference's last stage of the launch arguments. -/
theorem out_eq : W7 m ρ c (Proc.devRef .tc main_v58)
    = Cert.ReferenceIdeal.ReadP.val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W7_arr m ρ c 2).trans ((Cert.KernelIdeal.Stage3.final (V6 m ρ) c).trans ?_)
  show logSoftmax (addRow (W6 m ρ c (Proc.devRef .tc main_v56) : Mat 100000 64) (W6 m ρ c (Proc.devRef .tc main_v57) : Mat 1 64)) = _
  rw [W6_v56 m ρ c, W6_v57 m ρ c]
  exact (Cert.ReferenceIdeal.Bridge.v85_eq _ _ _ _ _ _ shapeCasts_S64_S1x64).symm

/-! ## The run -/

/-- Every weakly fair execution of the kernel terminates, nothing faulting, with the result buffer at the reference's
    last stage of the launch arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v58)
        = Cert.ReferenceIdeal.ReadP.val_main_v85 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (out_eq m ρ c), (h c).2⟩) (Cert.KernelIdeal.Hand.run_out m ρ)

end Cert.KernelIdeal.Fold

end
-- ==== Proof.LibConcatCongr.lean ====
/-
  A TWO-PIECE CONCATENATION RESPECTS EQUALITY OF ITS PIECES, in the form of a congruence rule for the simplifier. Each
  piece of a concatenation is the second component of a pair whose first component is the piece's shape, so a
  rewriting pass does not enter it on its own; with this rule it does, and a chain of host operations that ends in a
  concatenation is read in one pass.
-/
import Idealize.ShloMosaic.PureOps.ShapeOps

namespace Cert.LibConcatCongr

open Idealize.ShloMosaic

/-- Two pieces joined along an axis: equal pieces give equal joins. (Not tagged here: a module that wants the
    simplifier to use it says so locally.) -/
theorem concatenate_pair_congr {α : Type} {t s₁ s₂ : Shape} (a : Fin t.rank) (x₁ x₁' : s₁.Idx → α)
    (x₂ x₂' : s₂.Idx → α) (h : Shape.Concatenates [s₁, s₂] t a) (e₁ : x₁ = x₁') (e₂ : x₂ = x₂') :
    concatenate t a [⟨s₁, x₁⟩, ⟨s₂, x₂⟩] h = concatenate t a [⟨s₁, x₁'⟩, ⟨s₂, x₂'⟩] h := by
  subst e₁ e₂; rfl

end Cert.LibConcatCongr
-- ==== Proof.LibTypedRefs.lean ====
/-
  A typed tensor reference moves a value between the value's own type and the type its buffer is declared with; the two
  moves at one buffer undo each other, whatever the proofs the two typed references carry.
-/
import Idealize.ShloMosaic.Lib.StableHlo

noncomputable section

namespace Cert.LibTypedRefs

open Idealize.ShloMosaic Idealize.ShloMosaic.StableHlo

/-- Reading back through a typed reference what was written through a typed reference to the same buffer gives the value
    written. -/
theorem ofBuf_toBuf {sig : RefSig} {Val : EltTy → Type} {T : BufTy} (r : Ref sig .tc) (h h' : r.ty = T)
    (a a' : r.space ≠ .host) (b b' : r.isScoped = false) (u : T.Contents Val) :
    (TRef.of r h a b).ofBuf ((TRef.of r h' a' b').toBuf u) = u := by
  subst h; rfl

end Cert.LibTypedRefs

end
-- ==== Proof.RefRun.lean ====
/-
  The reference's run, read in seven stretches.

  The host program is one line of 120 operations.  Read back as one term it repeats the edge vectors (source nodes,
  destination nodes, the normalisation weights) at each of their many uses.  Here the line is cut into seven stretches,
  each ending where a value that several later operations use is complete: the two edge vectors and the first dense
  product; the normalisation weights; the first aggregation; the bias, the floor at zero and the second dense product; the
  edge vectors and weights computed a second time; the second aggregation; the bias and the logarithm of the softmax.
  The buffer contents after a stretch are the stretch's operations folded over the contents before it; at the end of
  each stretch the few buffers that later stretches read hold the corresponding stage of the program as a function of
  the launch arguments, and a buffer that a stretch does not write keeps its contents.  Chained, the result buffer ends at
  the last stage of the arguments, and no stretch writes an argument.
-/
import proofs.«156674_j5961414607058_1_alg».proof.Proof.RefOpsP
import proofs.«156674_j5961414607058_1_alg».proof.Proof.RefStagesP
import proofs.«156674_j5961414607058_1_alg».proof.Proof.LibConcatCongr
import proofs.«156674_j5961414607058_1_alg».proof.Proof.LibTypedRefs
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-! ## The seven stretches of the line -/

/-- Operations 1 … 8 of the line. -/
abbrev opsA : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    binary main_arg0 main_arg2 main_v4 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_v5 (iotaInDim S100000 32 0),
    binary main_v1 main_v5 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v5 main_v7 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]

/-- Operations 9 … 34 of the line. -/
abbrev opsB : List (HloOp τ sig (Elt F)) :=
  [ nullary main_cst (constant S_ .f32 0x3F800000#32),
    unary main_cst main_v8 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v7 main_v10 (broadcastInDim S1700000x1 ![0] bcast_S1700000_S1700000x1_0 : (⟨S1700000, .i32⟩ : BufTy).Contents (Elt F) → (⟨S1700000x1, .i32⟩ : BufTy).Contents (Elt F)),
    ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    unary main_v11 main_v12 (Host.rsqrt : (⟨S100000, .f32⟩ : BufTy).Contents (Elt F) → (⟨S100000, .f32⟩ : BufTy).Contents (Elt F)),
    nullary main_c (constantI S_ 32 0#32),
    unary main_c main_v13 (broadcastInDim S1700000 ![] bcast_S_S1700000 : (⟨S_, .i32⟩ : BufTy).Contents (Elt F) → (⟨S1700000, .i32⟩ : BufTy).Contents (Elt F)),
    binary main_v6 main_v13 main_v14 (cmpi .slt : (⟨S1700000, .i32⟩ : BufTy).Contents (Elt F) → (⟨S1700000, .i32⟩ : BufTy).Contents (Elt F) → (⟨S1700000, .i1⟩ : BufTy).Contents (Elt F)),
    nullary main_c_1 (constantI S_ 32 100000#32),
    unary main_c_1 main_v15 (broadcastInDim S1700000 ![] bcast_S_S1700000 : (⟨S_, .i32⟩ : BufTy).Contents (Elt F) → (⟨S1700000, .i32⟩ : BufTy).Contents (Elt F)),
    binary main_v6 main_v15 main_v16 (addi : (⟨S1700000, .i32⟩ : BufTy).Contents (Elt F) → (⟨S1700000, .i32⟩ : BufTy).Contents (Elt F) → (⟨S1700000, .i32⟩ : BufTy).Contents (Elt F)),
    ternary main_v14 main_v16 main_v6 main_v17 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v17 main_v18 (broadcastInDim S1700000x1 ![0] bcast_S1700000_S1700000x1_0 : (⟨S1700000, .i32⟩ : BufTy).Contents (Elt F) → (⟨S1700000x1, .i32⟩ : BufTy).Contents (Elt F)),
    binary main_v12 main_v18 main_v19 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_2 (constantI S_ 32 0#32),
    unary main_c_2 main_v20 (broadcastInDim S1700000 ![] bcast_S_S1700000 : (⟨S_, .i32⟩ : BufTy).Contents (Elt F) → (⟨S1700000, .i32⟩ : BufTy).Contents (Elt F)),
    binary main_v7 main_v20 main_v21 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v22 (broadcastInDim S1700000 ![] bcast_S_S1700000 : (⟨S_, .i32⟩ : BufTy).Contents (Elt F) → (⟨S1700000, .i32⟩ : BufTy).Contents (Elt F)),
    binary main_v7 main_v22 main_v23 (addi : (⟨S1700000, .i32⟩ : BufTy).Contents (Elt F) → (⟨S1700000, .i32⟩ : BufTy).Contents (Elt F) → (⟨S1700000, .i32⟩ : BufTy).Contents (Elt F)),
    ternary main_v21 main_v23 main_v7 main_v24 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v24 main_v25 (broadcastInDim S1700000x1 ![0] bcast_S1700000_S1700000x1_0 : (⟨S1700000, .i32⟩ : BufTy).Contents (Elt F) → (⟨S1700000x1, .i32⟩ : BufTy).Contents (Elt F)),
    binary main_v12 main_v25 main_v26 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v19 main_v26 main_v27 (mulf : (⟨S1700000, .f32⟩ : BufTy).Contents (Elt F) → (⟨S1700000, .f32⟩ : BufTy).Contents (Elt F) → (⟨S1700000, .f32⟩ : BufTy).Contents (Elt F)) ]

/-- Operations 35 … 50 of the line. -/
abbrev opsC : List (HloOp τ sig (Elt F)) :=
  [ nullary main_c_4 (constantI S_ 32 0#32),
    unary main_c_4 main_v28 (broadcastInDim S1700000 ![] bcast_S_S1700000 : (⟨S_, .i32⟩ : BufTy).Contents (Elt F) → (⟨S1700000, .i32⟩ : BufTy).Contents (Elt F)),
    binary main_v6 main_v28 main_v29 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v30 (broadcastInDim S1700000 ![] bcast_S_S1700000 : (⟨S_, .i32⟩ : BufTy).Contents (Elt F) → (⟨S1700000, .i32⟩ : BufTy).Contents (Elt F)),
    binary main_v6 main_v30 main_v31 (addi : (⟨S1700000, .i32⟩ : BufTy).Contents (Elt F) → (⟨S1700000, .i32⟩ : BufTy).Contents (Elt F) → (⟨S1700000, .i32⟩ : BufTy).Contents (Elt F)),
    ternary main_v29 main_v31 main_v6 main_v32 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v32 main_v33 (broadcastInDim S1700000x1 ![0] bcast_S1700000_S1700000x1_0 : (⟨S1700000, .i32⟩ : BufTy).Contents (Elt F) → (⟨S1700000x1, .i32⟩ : BufTy).Contents (Elt F)),
    binary main_v4 main_v33 main_v34 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v27 main_v35 (broadcastInDim S1700000x1 ![0] bcast_S1700000_S1700000x1_0 : (⟨S1700000, .f32⟩ : BufTy).Contents (Elt F) → (⟨S1700000x1, .f32⟩ : BufTy).Contents (Elt F)),
    unary main_v35 main_v36 (broadcastInDim S1700000x128 ![0, 1] bcast_S1700000x1_S1700000x128_0_1 : (⟨S1700000x1, .f32⟩ : BufTy).Contents (Elt F) → (⟨S1700000x128, .f32⟩ : BufTy).Contents (Elt F)),
    binary main_v34 main_v36 main_v37 (mulf : (⟨S1700000x128, .f32⟩ : BufTy).Contents (Elt F) → (⟨S1700000x128, .f32⟩ : BufTy).Contents (Elt F) → (⟨S1700000x128, .f32⟩ : BufTy).Contents (Elt F)),
    nullary main_cst_6 (constant S_ .f32 0x00000000#32),
    unary main_cst_6 main_v38 (broadcastInDim S100000x128 ![] bcast_S_S100000x128 : (⟨S_, .f32⟩ : BufTy).Contents (Elt F) → (⟨S100000x128, .f32⟩ : BufTy).Contents (Elt F)),
    unary main_v7 main_v39 (broadcastInDim S1700000x1 ![0] bcast_S1700000_S1700000x1_0 : (⟨S1700000, .i32⟩ : BufTy).Contents (Elt F) → (⟨S1700000x1, .i32⟩ : BufTy).Contents (Elt F)),
    ternary main_v38 main_v39 main_v37 main_v40 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]

/-- Operations 51 … 57 of the line. -/
abbrev opsD : List (HloOp τ sig (Elt F)) :=
  [ unary main_arg3 main_v41 (broadcastInDim S1x128 ![1] bcast_S128_S1x128_1 : (⟨S128, .f32⟩ : BufTy).Contents (Elt F) → (⟨S1x128, .f32⟩ : BufTy).Contents (Elt F)),
    unary main_v41 main_v42 (broadcastInDim S100000x128 ![0, 1] bcast_S1x128_S100000x128_0_1 : (⟨S1x128, .f32⟩ : BufTy).Contents (Elt F) → (⟨S100000x128, .f32⟩ : BufTy).Contents (Elt F)),
    binary main_v40 main_v42 main_v43 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v43) (TRef.of (T := ⟨S100000x128, .f32⟩) main_call0_v0) (TRef.of (T := ⟨S100000x128, .f32⟩) main_v44) maximumf,
    binary main_v44 main_arg4 main_v45 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)) ]

/-- Operations 58 … 86 of the line. -/
abbrev opsE : List (HloOp τ sig (Elt F)) :=
  [ nullary main_v46 (iotaInDim S100000 32 0),
    binary main_v1 main_v46 main_v47 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v46 main_v48 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst_7 (constant S_ .f32 0x3F800000#32),
    unary main_cst_7 main_v49 (broadcastInDim S1700000 ![] bcast_S_S1700000 : (⟨S_, .f32⟩ : BufTy).Contents (Elt F) → (⟨S1700000, .f32⟩ : BufTy).Contents (Elt F)),
    nullary main_cst_8 (constant S_ .f32 0x00000000#32),
    unary main_cst_8 main_v50 (broadcastInDim S100000 ![] bcast_S_S100000 : (⟨S_, .f32⟩ : BufTy).Contents (Elt F) → (⟨S100000, .f32⟩ : BufTy).Contents (Elt F)),
    unary main_v48 main_v51 (broadcastInDim S1700000x1 ![0] bcast_S1700000_S1700000x1_0 : (⟨S1700000, .i32⟩ : BufTy).Contents (Elt F) → (⟨S1700000x1, .i32⟩ : BufTy).Contents (Elt F)),
    ternary main_v50 main_v51 main_v49 main_v52 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    unary main_v52 main_v53 (Host.rsqrt : (⟨S100000, .f32⟩ : BufTy).Contents (Elt F) → (⟨S100000, .f32⟩ : BufTy).Contents (Elt F)),
    nullary main_c_9 (constantI S_ 32 0#32),
    unary main_c_9 main_v54 (broadcastInDim S1700000 ![] bcast_S_S1700000 : (⟨S_, .i32⟩ : BufTy).Contents (Elt F) → (⟨S1700000, .i32⟩ : BufTy).Contents (Elt F)),
    binary main_v47 main_v54 main_v55 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v56 (broadcastInDim S1700000 ![] bcast_S_S1700000 : (⟨S_, .i32⟩ : BufTy).Contents (Elt F) → (⟨S1700000, .i32⟩ : BufTy).Contents (Elt F)),
    binary main_v47 main_v56 main_v57 (addi : (⟨S1700000, .i32⟩ : BufTy).Contents (Elt F) → (⟨S1700000, .i32⟩ : BufTy).Contents (Elt F) → (⟨S1700000, .i32⟩ : BufTy).Contents (Elt F)),
    ternary main_v55 main_v57 main_v47 main_v58 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v58 main_v59 (broadcastInDim S1700000x1 ![0] bcast_S1700000_S1700000x1_0 : (⟨S1700000, .i32⟩ : BufTy).Contents (Elt F) → (⟨S1700000x1, .i32⟩ : BufTy).Contents (Elt F)),
    binary main_v53 main_v59 main_v60 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_11 (constantI S_ 32 0#32),
    unary main_c_11 main_v61 (broadcastInDim S1700000 ![] bcast_S_S1700000 : (⟨S_, .i32⟩ : BufTy).Contents (Elt F) → (⟨S1700000, .i32⟩ : BufTy).Contents (Elt F)),
    binary main_v48 main_v61 main_v62 (cmpi .slt : (⟨S1700000, .i32⟩ : BufTy).Contents (Elt F) → (⟨S1700000, .i32⟩ : BufTy).Contents (Elt F) → (⟨S1700000, .i1⟩ : BufTy).Contents (Elt F)),
    nullary main_c_12 (constantI S_ 32 100000#32),
    unary main_c_12 main_v63 (broadcastInDim S1700000 ![] bcast_S_S1700000 : (⟨S_, .i32⟩ : BufTy).Contents (Elt F) → (⟨S1700000, .i32⟩ : BufTy).Contents (Elt F)),
    binary main_v48 main_v63 main_v64 (addi : (⟨S1700000, .i32⟩ : BufTy).Contents (Elt F) → (⟨S1700000, .i32⟩ : BufTy).Contents (Elt F) → (⟨S1700000, .i32⟩ : BufTy).Contents (Elt F)),
    ternary main_v62 main_v64 main_v48 main_v65 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v65 main_v66 (broadcastInDim S1700000x1 ![0] bcast_S1700000_S1700000x1_0 : (⟨S1700000, .i32⟩ : BufTy).Contents (Elt F) → (⟨S1700000x1, .i32⟩ : BufTy).Contents (Elt F)),
    binary main_v53 main_v66 main_v67 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v60 main_v67 main_v68 (mulf : (⟨S1700000, .f32⟩ : BufTy).Contents (Elt F) → (⟨S1700000, .f32⟩ : BufTy).Contents (Elt F) → (⟨S1700000, .f32⟩ : BufTy).Contents (Elt F)) ]

/-- Operations 87 … 102 of the line. -/
abbrev opsF : List (HloOp τ sig (Elt F)) :=
  [ nullary main_c_13 (constantI S_ 32 0#32),
    unary main_c_13 main_v69 (broadcastInDim S1700000 ![] bcast_S_S1700000 : (⟨S_, .i32⟩ : BufTy).Contents (Elt F) → (⟨S1700000, .i32⟩ : BufTy).Contents (Elt F)),
    binary main_v47 main_v69 main_v70 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v71 (broadcastInDim S1700000 ![] bcast_S_S1700000 : (⟨S_, .i32⟩ : BufTy).Contents (Elt F) → (⟨S1700000, .i32⟩ : BufTy).Contents (Elt F)),
    binary main_v47 main_v71 main_v72 (addi : (⟨S1700000, .i32⟩ : BufTy).Contents (Elt F) → (⟨S1700000, .i32⟩ : BufTy).Contents (Elt F) → (⟨S1700000, .i32⟩ : BufTy).Contents (Elt F)),
    ternary main_v70 main_v72 main_v47 main_v73 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v73 main_v74 (broadcastInDim S1700000x1 ![0] bcast_S1700000_S1700000x1_0 : (⟨S1700000, .i32⟩ : BufTy).Contents (Elt F) → (⟨S1700000x1, .i32⟩ : BufTy).Contents (Elt F)),
    binary main_v45 main_v74 main_v75 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v68 main_v76 (broadcastInDim S1700000x1 ![0] bcast_S1700000_S1700000x1_0 : (⟨S1700000, .f32⟩ : BufTy).Contents (Elt F) → (⟨S1700000x1, .f32⟩ : BufTy).Contents (Elt F)),
    unary main_v76 main_v77 (broadcastInDim S1700000x64 ![0, 1] bcast_S1700000x1_S1700000x64_0_1 : (⟨S1700000x1, .f32⟩ : BufTy).Contents (Elt F) → (⟨S1700000x64, .f32⟩ : BufTy).Contents (Elt F)),
    binary main_v75 main_v77 main_v78 (mulf : (⟨S1700000x64, .f32⟩ : BufTy).Contents (Elt F) → (⟨S1700000x64, .f32⟩ : BufTy).Contents (Elt F) → (⟨S1700000x64, .f32⟩ : BufTy).Contents (Elt F)),
    nullary main_cst_15 (constant S_ .f32 0x00000000#32),
    unary main_cst_15 main_v79 (broadcastInDim S100000x64 ![] bcast_S_S100000x64 : (⟨S_, .f32⟩ : BufTy).Contents (Elt F) → (⟨S100000x64, .f32⟩ : BufTy).Contents (Elt F)),
    unary main_v48 main_v80 (broadcastInDim S1700000x1 ![0] bcast_S1700000_S1700000x1_0 : (⟨S1700000, .i32⟩ : BufTy).Contents (Elt F) → (⟨S1700000x1, .i32⟩ : BufTy).Contents (Elt F)),
    ternary main_v79 main_v80 main_v78 main_v81 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]

/-- Operations 103 … 120 of the line. -/
abbrev opsG : List (HloOp τ sig (Elt F)) :=
  [ unary main_arg5 main_v82 (broadcastInDim S1x64 ![1] bcast_S64_S1x64_1 : (⟨S64, .f32⟩ : BufTy).Contents (Elt F) → (⟨S1x64, .f32⟩ : BufTy).Contents (Elt F)),
    unary main_v82 main_v83 (broadcastInDim S100000x64 ![0, 1] bcast_S1x64_S100000x64_0_1 : (⟨S1x64, .f32⟩ : BufTy).Contents (Elt F) → (⟨S100000x64, .f32⟩ : BufTy).Contents (Elt F)),
    binary main_v81 main_v83 main_v84 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0xFF800000#32),
    TRef.binary (TRef.of (T := ⟨S100000x64, .f32⟩) main_v84) (TRef.of (T := ⟨S_, .f32⟩) main_call1_cst) (TRef.of (T := ⟨S100000, .f32⟩) main_call1_v0) (fun x v => Host.reduce FloatOps.maximumf x v reducesTo_S100000x64_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x64, .f32⟩) main_call1_v4) (broadcastInDim S100000x64 ![0, 1] bcast_S100000x1_S100000x64_0_1),
    TRef.binary (TRef.of (T := ⟨S100000x64, .f32⟩) main_v84) (TRef.of (T := ⟨S100000x64, .f32⟩) main_call1_v4) (TRef.of (T := ⟨S100000x64, .f32⟩) main_call1_v5) subf,
    TRef.unary (TRef.of (T := ⟨S100000x64, .f32⟩) main_call1_v5) (TRef.of (T := ⟨S100000x64, .f32⟩) main_call1_v6) Host.exp,
    TRef.nullary (TRef.of (T := ⟨S_, .f32⟩) main_call1_cst_1) (constant S_ .f32 0x00000000#32),
    TRef.binary (TRef.of (T := ⟨S100000x64, .f32⟩) main_call1_v6) (TRef.of (T := ⟨S_, .f32⟩) main_call1_cst_1) (TRef.of (T := ⟨S100000, .f32⟩) main_call1_v7) (fun x v => Host.reduceAdd x v reducesTo_S100000x64_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x64, .f32⟩) main_call1_v10) (broadcastInDim S100000x64 ![0, 1] bcast_S100000x1_S100000x64_0_1),
    TRef.binary (TRef.of (T := ⟨S100000x64, .f32⟩) main_call1_v5) (TRef.of (T := ⟨S100000x64, .f32⟩) main_call1_v10) (TRef.of (T := ⟨S100000x64, .f32⟩) main_v85) subf ]

set_option maxRecDepth 8192 in
/-- The line is its seven stretches in order. -/
theorem ops_split : (ValueP.ops : List (HloOp τ sig (Elt F))) = opsA ++ opsB ++ opsC ++ opsD ++ opsE ++ opsF ++ opsG := rfl

/-- Folding two stretches run one after the other is folding the second over the fold of the first. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- A buffer that none of a stretch's operations writes keeps its contents: every operation writes its one result buffer,
    and that is another buffer. -/
macro "not_written" : tactic => `(tactic| (
  refine after_of_forall_not_mem _ _ (List.forall_iff_forall_mem.mp ?_)
  simp only [ValueP.ops, opsA, opsB, opsC, opsD, opsE, opsF, opsG, TRef.nullary, TRef.unary, TRef.binary, List.Forall,
    nullary_writes, unary_writes, binary_writes, ternary_writes, reshape_writes, Finset.mem_singleton]
  repeat' apply And.intro
  all_goals exact devRef_ne_of_ne (by decide)))

theorem keepA_main_arg3 (V : Valuation τ sig (Elt F)) : after opsA V (Proc.devRef .tc main_arg3) = V (Proc.devRef .tc main_arg3) := by not_written
theorem keepA_main_arg4 (V : Valuation τ sig (Elt F)) : after opsA V (Proc.devRef .tc main_arg4) = V (Proc.devRef .tc main_arg4) := by not_written
theorem keepA_main_arg5 (V : Valuation τ sig (Elt F)) : after opsA V (Proc.devRef .tc main_arg5) = V (Proc.devRef .tc main_arg5) := by not_written
theorem keepB_main_v1 (V : Valuation τ sig (Elt F)) : after opsB V (Proc.devRef .tc main_v1) = V (Proc.devRef .tc main_v1) := by not_written
theorem keepB_main_v3 (V : Valuation τ sig (Elt F)) : after opsB V (Proc.devRef .tc main_v3) = V (Proc.devRef .tc main_v3) := by not_written
theorem keepB_main_v4 (V : Valuation τ sig (Elt F)) : after opsB V (Proc.devRef .tc main_v4) = V (Proc.devRef .tc main_v4) := by not_written
theorem keepB_main_v6 (V : Valuation τ sig (Elt F)) : after opsB V (Proc.devRef .tc main_v6) = V (Proc.devRef .tc main_v6) := by not_written
theorem keepB_main_v7 (V : Valuation τ sig (Elt F)) : after opsB V (Proc.devRef .tc main_v7) = V (Proc.devRef .tc main_v7) := by not_written
theorem keepB_main_arg3 (V : Valuation τ sig (Elt F)) : after opsB V (Proc.devRef .tc main_arg3) = V (Proc.devRef .tc main_arg3) := by not_written
theorem keepB_main_arg4 (V : Valuation τ sig (Elt F)) : after opsB V (Proc.devRef .tc main_arg4) = V (Proc.devRef .tc main_arg4) := by not_written
theorem keepB_main_arg5 (V : Valuation τ sig (Elt F)) : after opsB V (Proc.devRef .tc main_arg5) = V (Proc.devRef .tc main_arg5) := by not_written
theorem keepC_main_v1 (V : Valuation τ sig (Elt F)) : after opsC V (Proc.devRef .tc main_v1) = V (Proc.devRef .tc main_v1) := by not_written
theorem keepC_main_v3 (V : Valuation τ sig (Elt F)) : after opsC V (Proc.devRef .tc main_v3) = V (Proc.devRef .tc main_v3) := by not_written
theorem keepC_main_arg3 (V : Valuation τ sig (Elt F)) : after opsC V (Proc.devRef .tc main_arg3) = V (Proc.devRef .tc main_arg3) := by not_written
theorem keepC_main_arg4 (V : Valuation τ sig (Elt F)) : after opsC V (Proc.devRef .tc main_arg4) = V (Proc.devRef .tc main_arg4) := by not_written
theorem keepC_main_arg5 (V : Valuation τ sig (Elt F)) : after opsC V (Proc.devRef .tc main_arg5) = V (Proc.devRef .tc main_arg5) := by not_written
theorem keepD_main_v1 (V : Valuation τ sig (Elt F)) : after opsD V (Proc.devRef .tc main_v1) = V (Proc.devRef .tc main_v1) := by not_written
theorem keepD_main_v3 (V : Valuation τ sig (Elt F)) : after opsD V (Proc.devRef .tc main_v3) = V (Proc.devRef .tc main_v3) := by not_written
theorem keepD_main_arg5 (V : Valuation τ sig (Elt F)) : after opsD V (Proc.devRef .tc main_arg5) = V (Proc.devRef .tc main_arg5) := by not_written
theorem keepE_main_v45 (V : Valuation τ sig (Elt F)) : after opsE V (Proc.devRef .tc main_v45) = V (Proc.devRef .tc main_v45) := by not_written
theorem keepE_main_arg5 (V : Valuation τ sig (Elt F)) : after opsE V (Proc.devRef .tc main_arg5) = V (Proc.devRef .tc main_arg5) := by not_written
theorem keepF_main_arg5 (V : Valuation τ sig (Elt F)) : after opsF V (Proc.devRef .tc main_arg5) = V (Proc.devRef .tc main_arg5) := by not_written

/-! ## The buffer contents after each stretch -/

variable (m : (ℓ : Loc nD τ sig) → Buf (Elt F) ℓ) (c : Dev nD)

/-- The contents after stretch A. -/
def XA : Valuation τ sig (Elt F) := after opsA (launchContents m c)
/-- The contents after stretch B. -/
def XB : Valuation τ sig (Elt F) := after opsB (XA m c)
/-- The contents after stretch C. -/
def XC : Valuation τ sig (Elt F) := after opsC (XB m c)
/-- The contents after stretch D. -/
def XD : Valuation τ sig (Elt F) := after opsD (XC m c)
/-- The contents after stretch E. -/
def XE : Valuation τ sig (Elt F) := after opsE (XD m c)
/-- The contents after stretch F. -/
def XF : Valuation τ sig (Elt F) := after opsF (XE m c)
/-- The contents after stretch G. -/
def XG : Valuation τ sig (Elt F) := after opsG (XF m c)

/-! ## What the buffers read later hold, stretch by stretch -/

-- two concatenations of equal pieces are equal
attribute [local congr] Cert.LibConcatCongr.concatenate_pair_congr

theorem XA_main_arg3 : XA m c (Proc.devRef .tc main_arg3) = (m ((c.tc : Thread nD τ).loc main_arg3)) :=
  (keepA_main_arg3 (launchContents m c)).trans rfl
theorem XA_main_arg4 : XA m c (Proc.devRef .tc main_arg4) = (m ((c.tc : Thread nD τ).loc main_arg4)) :=
  (keepA_main_arg4 (launchContents m c)).trans rfl
theorem XA_main_arg5 : XA m c (Proc.devRef .tc main_arg5) = (m ((c.tc : Thread nD τ).loc main_arg5)) :=
  (keepA_main_arg5 (launchContents m c)).trans rfl
theorem XA_main_v1 : XA m c (Proc.devRef .tc main_v1) = val_main_v1 (m ((c.tc : Thread nD τ).loc main_arg1)) := by
  show after opsA (launchContents m c) (Proc.devRef .tc main_v1) = _
  simp only [opsA]
  after_results_simp
  rfl
theorem XA_main_v3 : XA m c (Proc.devRef .tc main_v3) = val_main_v3 (m ((c.tc : Thread nD τ).loc main_arg1)) := by
  show after opsA (launchContents m c) (Proc.devRef .tc main_v3) = _
  simp only [opsA]
  after_results_simp
  rfl
theorem XA_main_v4 : XA m c (Proc.devRef .tc main_v4) = val_main_v4 (m ((c.tc : Thread nD τ).loc main_arg0)) (m ((c.tc : Thread nD τ).loc main_arg2)) := by
  show after opsA (launchContents m c) (Proc.devRef .tc main_v4) = _
  simp only [opsA]
  after_results_simp
  rfl
theorem XA_main_v6 : XA m c (Proc.devRef .tc main_v6) = val_main_v6 (m ((c.tc : Thread nD τ).loc main_arg1)) := by
  show after opsA (launchContents m c) (Proc.devRef .tc main_v6) = _
  simp only [opsA]
  after_results_simp
  rfl
theorem XA_main_v7 : XA m c (Proc.devRef .tc main_v7) = val_main_v7 (m ((c.tc : Thread nD τ).loc main_arg1)) := by
  show after opsA (launchContents m c) (Proc.devRef .tc main_v7) = _
  simp only [opsA]
  after_results_simp
  rfl

theorem XB_main_v1 : XB m c (Proc.devRef .tc main_v1) = val_main_v1 (m ((c.tc : Thread nD τ).loc main_arg1)) :=
  (keepB_main_v1 (XA m c)).trans (XA_main_v1 m c)
theorem XB_main_v3 : XB m c (Proc.devRef .tc main_v3) = val_main_v3 (m ((c.tc : Thread nD τ).loc main_arg1)) :=
  (keepB_main_v3 (XA m c)).trans (XA_main_v3 m c)
theorem XB_main_v4 : XB m c (Proc.devRef .tc main_v4) = val_main_v4 (m ((c.tc : Thread nD τ).loc main_arg0)) (m ((c.tc : Thread nD τ).loc main_arg2)) :=
  (keepB_main_v4 (XA m c)).trans (XA_main_v4 m c)
theorem XB_main_v6 : XB m c (Proc.devRef .tc main_v6) = val_main_v6 (m ((c.tc : Thread nD τ).loc main_arg1)) :=
  (keepB_main_v6 (XA m c)).trans (XA_main_v6 m c)
theorem XB_main_v7 : XB m c (Proc.devRef .tc main_v7) = val_main_v7 (m ((c.tc : Thread nD τ).loc main_arg1)) :=
  (keepB_main_v7 (XA m c)).trans (XA_main_v7 m c)
theorem XB_main_arg3 : XB m c (Proc.devRef .tc main_arg3) = (m ((c.tc : Thread nD τ).loc main_arg3)) :=
  (keepB_main_arg3 (XA m c)).trans (XA_main_arg3 m c)
theorem XB_main_arg4 : XB m c (Proc.devRef .tc main_arg4) = (m ((c.tc : Thread nD τ).loc main_arg4)) :=
  (keepB_main_arg4 (XA m c)).trans (XA_main_arg4 m c)
theorem XB_main_arg5 : XB m c (Proc.devRef .tc main_arg5) = (m ((c.tc : Thread nD τ).loc main_arg5)) :=
  (keepB_main_arg5 (XA m c)).trans (XA_main_arg5 m c)
set_option maxRecDepth 8192 in
theorem XB_main_v27 : XB m c (Proc.devRef .tc main_v27) = val_main_v27 (m ((c.tc : Thread nD τ).loc main_arg1)) := by
  show after opsB (XA m c) (Proc.devRef .tc main_v27) = _
  simp only [opsB]
  after_results_simp
  simp only [XA_main_v6 m c, XA_main_v7 m c]
  rfl

theorem XC_main_v1 : XC m c (Proc.devRef .tc main_v1) = val_main_v1 (m ((c.tc : Thread nD τ).loc main_arg1)) :=
  (keepC_main_v1 (XB m c)).trans (XB_main_v1 m c)
theorem XC_main_v3 : XC m c (Proc.devRef .tc main_v3) = val_main_v3 (m ((c.tc : Thread nD τ).loc main_arg1)) :=
  (keepC_main_v3 (XB m c)).trans (XB_main_v3 m c)
theorem XC_main_arg3 : XC m c (Proc.devRef .tc main_arg3) = (m ((c.tc : Thread nD τ).loc main_arg3)) :=
  (keepC_main_arg3 (XB m c)).trans (XB_main_arg3 m c)
theorem XC_main_arg4 : XC m c (Proc.devRef .tc main_arg4) = (m ((c.tc : Thread nD τ).loc main_arg4)) :=
  (keepC_main_arg4 (XB m c)).trans (XB_main_arg4 m c)
theorem XC_main_arg5 : XC m c (Proc.devRef .tc main_arg5) = (m ((c.tc : Thread nD τ).loc main_arg5)) :=
  (keepC_main_arg5 (XB m c)).trans (XB_main_arg5 m c)
theorem XC_main_v40 : XC m c (Proc.devRef .tc main_v40) = val_main_v40 (m ((c.tc : Thread nD τ).loc main_arg0)) (m ((c.tc : Thread nD τ).loc main_arg1)) (m ((c.tc : Thread nD τ).loc main_arg2)) := by
  show after opsC (XB m c) (Proc.devRef .tc main_v40) = _
  simp only [opsC]
  after_results_simp
  simp only [XB_main_v4 m c, XB_main_v6 m c, XB_main_v7 m c, XB_main_v27 m c]
  rfl

theorem XD_main_v1 : XD m c (Proc.devRef .tc main_v1) = val_main_v1 (m ((c.tc : Thread nD τ).loc main_arg1)) :=
  (keepD_main_v1 (XC m c)).trans (XC_main_v1 m c)
theorem XD_main_v3 : XD m c (Proc.devRef .tc main_v3) = val_main_v3 (m ((c.tc : Thread nD τ).loc main_arg1)) :=
  (keepD_main_v3 (XC m c)).trans (XC_main_v3 m c)
theorem XD_main_arg5 : XD m c (Proc.devRef .tc main_arg5) = (m ((c.tc : Thread nD τ).loc main_arg5)) :=
  (keepD_main_arg5 (XC m c)).trans (XC_main_arg5 m c)
theorem XD_main_v45 : XD m c (Proc.devRef .tc main_v45) = val_main_v45 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show after opsD (XC m c) (Proc.devRef .tc main_v45) = _
  simp only [opsD]
  after_results_simp
  simp only [XC_main_v40 m c, XC_main_arg3 m c, XC_main_arg4 m c]
  rfl

theorem XE_main_v45 : XE m c (Proc.devRef .tc main_v45) = val_main_v45 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (keepE_main_v45 (XD m c)).trans (XD_main_v45 m c)
theorem XE_main_arg5 : XE m c (Proc.devRef .tc main_arg5) = (m ((c.tc : Thread nD τ).loc main_arg5)) :=
  (keepE_main_arg5 (XD m c)).trans (XD_main_arg5 m c)
set_option maxRecDepth 8192 in
theorem XE_main_v47 : XE m c (Proc.devRef .tc main_v47) = val_main_v47 (m ((c.tc : Thread nD τ).loc main_arg1)) := by
  show after opsE (XD m c) (Proc.devRef .tc main_v47) = _
  simp only [opsE]
  after_results_simp
  simp only [XD_main_v1 m c, XD_main_v3 m c]
  rfl
set_option maxRecDepth 8192 in
theorem XE_main_v48 : XE m c (Proc.devRef .tc main_v48) = val_main_v48 (m ((c.tc : Thread nD τ).loc main_arg1)) := by
  show after opsE (XD m c) (Proc.devRef .tc main_v48) = _
  simp only [opsE]
  after_results_simp
  simp only [XD_main_v1 m c, XD_main_v3 m c]
  rfl
set_option maxRecDepth 8192 in
theorem XE_main_v68 : XE m c (Proc.devRef .tc main_v68) = val_main_v68 (m ((c.tc : Thread nD τ).loc main_arg1)) := by
  show after opsE (XD m c) (Proc.devRef .tc main_v68) = _
  simp only [opsE]
  after_results_simp
  simp only [XD_main_v1 m c, XD_main_v3 m c]
  rfl

theorem XF_main_arg5 : XF m c (Proc.devRef .tc main_arg5) = (m ((c.tc : Thread nD τ).loc main_arg5)) :=
  (keepF_main_arg5 (XE m c)).trans (XE_main_arg5 m c)
theorem XF_main_v81 : XF m c (Proc.devRef .tc main_v81) = val_main_v81 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show after opsF (XE m c) (Proc.devRef .tc main_v81) = _
  simp only [opsF]
  after_results_simp
  simp only [XE_main_v45 m c, XE_main_v47 m c, XE_main_v48 m c, XE_main_v68 m c]
  rfl

set_option maxRecDepth 65536 in
theorem XG_main_v85 : XG m c (Proc.devRef .tc main_v85) = val_main_v85 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show after opsG (XF m c) (Proc.devRef .tc main_v85) = _
  simp only [opsG]
  after_results_simp
  simp only [XF_main_v81 m c, XF_main_arg5 m c, Cert.LibTypedRefs.ofBuf_toBuf]
  rfl

/-! ## The run -/

/-- The result buffer after the whole line: the last stage of the launch arguments. -/
theorem result_eq : after (ValueP.ops : List (HloOp τ sig (Elt F))) (launchContents m c) (Proc.devRef .tc main_v85)
    = val_main_v85 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [ops_split]
  simp only [after_append]
  exact XG_main_v85 m c

set_option maxRecDepth 8192 in
theorem kept_main_arg0 : after (ValueP.ops : List (HloOp τ sig (Elt F))) (launchContents m c) (Proc.devRef .tc main_arg0)
    = m ((c.tc : Thread nD τ).loc main_arg0) := (by not_written : _ = launchContents m c (Proc.devRef .tc main_arg0)).trans rfl
set_option maxRecDepth 8192 in
theorem kept_main_arg1 : after (ValueP.ops : List (HloOp τ sig (Elt F))) (launchContents m c) (Proc.devRef .tc main_arg1)
    = m ((c.tc : Thread nD τ).loc main_arg1) := (by not_written : _ = launchContents m c (Proc.devRef .tc main_arg1)).trans rfl
set_option maxRecDepth 8192 in
theorem kept_main_arg2 : after (ValueP.ops : List (HloOp τ sig (Elt F))) (launchContents m c) (Proc.devRef .tc main_arg2)
    = m ((c.tc : Thread nD τ).loc main_arg2) := (by not_written : _ = launchContents m c (Proc.devRef .tc main_arg2)).trans rfl
set_option maxRecDepth 8192 in
theorem kept_main_arg3 : after (ValueP.ops : List (HloOp τ sig (Elt F))) (launchContents m c) (Proc.devRef .tc main_arg3)
    = m ((c.tc : Thread nD τ).loc main_arg3) := (by not_written : _ = launchContents m c (Proc.devRef .tc main_arg3)).trans rfl
set_option maxRecDepth 8192 in
theorem kept_main_arg4 : after (ValueP.ops : List (HloOp τ sig (Elt F))) (launchContents m c) (Proc.devRef .tc main_arg4)
    = m ((c.tc : Thread nD τ).loc main_arg4) := (by not_written : _ = launchContents m c (Proc.devRef .tc main_arg4)).trans rfl
set_option maxRecDepth 8192 in
theorem kept_main_arg5 : after (ValueP.ops : List (HloOp τ sig (Elt F))) (launchContents m c) (Proc.devRef .tc main_arg5)
    = m ((c.tc : Thread nD τ).loc main_arg5) := (by not_written : _ = launchContents m c (Proc.devRef .tc main_arg5)).trans rfl

/-- Every weakly fair execution of the reference terminates, nothing faulting, with the result buffer at the last stage of
    the launch arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v85) = val_main_v85 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v85).trans (result_eq m c),
      (h c main_arg0).trans (kept_main_arg0 m c),
      (h c main_arg1).trans (kept_main_arg1 m c),
      (h c main_arg2).trans (kept_main_arg2 m c),
      (h c main_arg3).trans (kept_main_arg3 m c),
      (h c main_arg4).trans (kept_main_arg4 m c),
      (h c main_arg5).trans (kept_main_arg5 m c)⟩)
    (run_seq ValueP.scopedRefs_eq ValueP.scopedSems_eq defs main (fun _ => ValueP.ops) ValueP.main_eq (fun _ => ValueP.ops_sub) m ρ)

end Cert.ReferenceIdeal.Hand

end
-- ==== Proof.lean ====
/-
  A two-layer graph convolution on 100000 nodes and 1600000 edges, as a kernel and as its reference, compared on the
  extended reals.

  Both programs compute, from the features x, the edge list, two weight matrices and two bias vectors:
      h   = max (A (x W1) + b1, 0),        out = logsoftmax (A (h W2) + b2)   along each row,
  where A sums, over the edges (with a self-loop per node) into each destination node, the source node's row times the
  edge's weight rsqrt(deg src) · rsqrt(deg dst).  The kernel computes the edge vectors and weights once and runs four
  pipelines of fifty grid points (2000 rows each): the product x W1, the bias and the floor, the product h W2, the bias and
  the logarithm of the softmax; between them its host operations apply A.  The reference is one line of host operations
  that computes the edge vectors and weights twice.

  Every stage the pipelines apply is row-local, so a pipeline's output array is the stage of its whole input array
  (the fifty blocks tile the rows); a change of float format is the identity on the extended reals, a matrix unit's
  product into the zero accumulator is the same sum of products as the host's contraction, and the vector unit's row
  reductions are the host's.  The aggregation A is the same operations on the same operands in both programs and is
  never opened.  No step distributes, cancels or reorders a sum beyond what addition and max allow at the infinities, so
  the precondition (finite inputs) is not used.  Both runs therefore end with the result at ONE term of the arguments:
  the reference's last stage.

  The kernel's frames are the generated ones; the reference's frame is its run with the result dropped; the ideal pass
  rewrote nothing, so the kernel's idealization is the program's own text read on the extended reals.
-/
import proofs.«156674_j5961414607058_1_alg».proof.Defs
import proofs.«156674_j5961414607058_1_alg».proof.Proof.Gen.Kernel
import proofs.«156674_j5961414607058_1_alg».proof.Proof.Gen.Kernel.Frame
import proofs.«156674_j5961414607058_1_alg».proof.Proof.Gen.KernelIdeal
import proofs.«156674_j5961414607058_1_alg».proof.Proof.Gen.KernelIdeal.Frame
import proofs.«156674_j5961414607058_1_alg».proof.Proof.Gen.ReferenceIdeal
import proofs.«156674_j5961414607058_1_alg».proof.Proof.Gen.Pre_finite_inputs
import proofs.«156674_j5961414607058_1_alg».proof.Proof.KernelFold
import proofs.«156674_j5961414607058_1_alg».proof.Proof.RefRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.Hand.run (F := Ideal) m ρ)

/-- The ideal pass rewrote no operation. -/
theorem preserves : Cert.preserves_Kernel_KernelIdeal := trivial

/-- Both runs end with the result at the reference's last stage of the arguments, which agree. -/
theorem algebraic : Cert.algebraic_KernelIdeal_ReferenceIdeal := by
  intro m ρ m' ρ' _ hagree
  refine ⟨_, Cert.KernelIdeal.Fold.run m ρ, ?_⟩
  refine (θ_run Cert.ReferenceIdeal.defs _ _).mono (fun _ h c => ⟨(h c).1.trans ?_, (h c).2⟩)
    (Cert.ReferenceIdeal.Hand.run (F := Ideal) m' ρ')
  obtain ⟨e0, e1, e2, e3, e4, e5⟩ := hagree c
  rw [e0, e1, e2, e3, e4, e5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
